-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x100x16384 : Shape := ⟨3, ![16, 100, 16384]⟩
abbrev S16x100x21 : Shape := ⟨3, ![16, 100, 21]⟩
abbrev S16x50x16384 : Shape := ⟨3, ![16, 50, 16384]⟩
abbrev S16x50 : Shape := ⟨2, ![16, 50]⟩
abbrev S_ : Shape := ⟨0, ![]⟩

class Facts : Prop where
  bcast_S_S16x100x16384 : S_.BroadcastsInDim S16x100x16384 (![] : Fin 0 → Fin S16x100x16384.rank)
  reducesTo_S16x100x16384_S_d0_1_2 : S16x100x16384.ReducesTo [0, 1, 2] S_
  h_S_ : 0 < S_.numel
  bcast_S_S16x100x21 : S_.BroadcastsInDim S16x100x21 (![] : Fin 0 → Fin S16x100x21.rank)
  reducesTo_S16x100x21_S_d0_1_2 : S16x100x21.ReducesTo [0, 1, 2] S_
  bcast_S_S16x50x16384 : S_.BroadcastsInDim S16x50x16384 (![] : Fin 0 → Fin S16x50x16384.rank)
  reducesTo_S16x50x16384_S_d0_1_2 : S16x50x16384.ReducesTo [0, 1, 2] S_

variable [Facts]

def fn {F : FTy → Type} [FloatOps F] (main_arg0 : FVec F S16x100x16384 .f32) (main_arg1 : FVec F S16x100x21 .f32) (main_arg2 : FVec F S16x50x16384 .f32) (main_arg3 : IVec S16x50 32) : IVec S_ 1 :=
  let main_v0 : FVec F S16x100x16384 .f32 := Host.absf main_arg0
  let main_cst : FVec F S_ .f32 := constant S_ .f32 0x7F800000#32
  let main_v1 : FVec F S16x100x16384 .f32 := broadcastInDim S16x100x16384 ![] bcast_S_S16x100x16384 main_cst
  let main_v2 : IVec S16x100x16384 1 := cmpf .olt main_v0 main_v1
  let main_c : IVec S_ 1 := constantI S_ 1 1#1
  let main_v3 : IVec S_ 1 := (fun x v => Host.reduce IntOp.andi x v reducesTo_S16x100x16384_S_d0_1_2 h_S_) main_v2 main_c
  let main_v4 : FVec F S16x100x21 .f32 := Host.absf main_arg1
  let main_cst_0 : FVec F S_ .f32 := constant S_ .f32 0x7F800000#32
  let main_v5 : FVec F S16x100x21 .f32 := broadcastInDim S16x100x21 ![] bcast_S_S16x100x21 main_cst_0
  let main_v6 : IVec S16x100x21 1 := cmpf .olt main_v4 main_v5
  let main_c_1 : IVec S_ 1 := constantI S_ 1 1#1
  let main_v7 : IVec S_ 1 := (fun x v => Host.reduce IntOp.andi x v reducesTo_S16x100x21_S_d0_1_2 h_S_) main_v6 main_c_1
  let main_v8 : IVec S_ 1 := andi main_v3 main_v7
  let main_v9 : FVec F S16x50x16384 .f32 := Host.absf main_arg2
  let main_cst_2 : FVec F S_ .f32 := constant S_ .f32 0x7F800000#32
  let main_v10 : FVec F S16x50x16384 .f32 := broadcastInDim S16x50x16384 ![] bcast_S_S16x50x16384 main_cst_2
  let main_v11 : IVec S16x50x16384 1 := cmpf .olt main_v9 main_v10
  let main_c_3 : IVec S_ 1 := constantI S_ 1 1#1
  let main_v12 : IVec S_ 1 := (fun x v => Host.reduce IntOp.andi x v reducesTo_S16x50x16384_S_d0_1_2 h_S_) main_v11 main_c_3
  let main_v13 : IVec S_ 1 := andi main_v8 main_v12
  main_v13
-- ==== Kernel.lean ====
abbrev S16x100x16384 : Shape := ⟨3, ![16, 100, 16384]⟩
abbrev S16x100x21 : Shape := ⟨3, ![16, 100, 21]⟩
abbrev S16x50x16384 : Shape := ⟨3, ![16, 50, 16384]⟩
abbrev S16x50 : Shape := ⟨2, ![16, 50]⟩
abbrev S16x100x50 : Shape := ⟨3, ![16, 100, 50]⟩
abbrev S1x100x4096 : Shape := ⟨3, ![1, 100, 4096]⟩
abbrev S1x50x4096 : Shape := ⟨3, ![1, 50, 4096]⟩
abbrev S1x100x50 : Shape := ⟨3, ![1, 100, 50]⟩
abbrev S100x50 : Shape := ⟨2, ![100, 50]⟩
abbrev S100x1 : Shape := ⟨2, ![100, 1]⟩
abbrev S50x1 : Shape := ⟨2, ![50, 1]⟩
abbrev S100x4096 : Shape := ⟨2, ![100, 4096]⟩
abbrev S50x4096 : Shape := ⟨2, ![50, 4096]⟩
abbrev S100 : Shape := ⟨1, ![100]⟩
abbrev S50 : Shape := ⟨1, ![50]⟩
abbrev S1x50 : Shape := ⟨2, ![1, 50]⟩
abbrev S_ : Shape := ⟨0, ![]⟩
abbrev S16x100 : Shape := ⟨2, ![16, 100]⟩
abbrev S16x100x1 : Shape := ⟨3, ![16, 100, 1]⟩
abbrev S16x50x1 : Shape := ⟨3, ![16, 50, 1]⟩
abbrev S1x1x21 : Shape := ⟨3, ![1, 1, 21]⟩
abbrev S16x50x21 : Shape := ⟨3, ![16, 50, 21]⟩

abbrev nBuf : Space → Nat
  | .hbm => 28
  | .vmem => 10
  | .smem => 0
  | _ => 0

abbrev bufTy : (tb : Table) → Fin (tcTables nBuf tb) → BufTy
  | .hbm, ⟨0, _⟩ => ⟨S16x100x16384, .f32⟩
  | .hbm, ⟨1, _⟩ => ⟨S16x100x21, .f32⟩
  | .hbm, ⟨2, _⟩ => ⟨S16x50x16384, .f32⟩
  | .hbm, ⟨3, _⟩ => ⟨S16x50, .i32⟩
  | .hbm, ⟨4, _⟩ => ⟨S16x100x50, .f32⟩
  | .hbm, ⟨5, _⟩ => ⟨S_, .f32⟩
  | .hbm, ⟨6, _⟩ => ⟨S16x100, .f32⟩
  | .hbm, ⟨7, _⟩ => ⟨S_, .f32⟩
  | .hbm, ⟨8, _⟩ => ⟨S16x100, .f32⟩
  | .hbm, ⟨9, _⟩ => ⟨S16x100, .f32⟩
  | .hbm, ⟨10, _⟩ => ⟨S16x100x1, .f32⟩
  | .hbm, ⟨11, _⟩ => ⟨S16x100x21, .f32⟩
  | .hbm, ⟨12, _⟩ => ⟨S16x100x21, .f32⟩
  | .hbm, ⟨13, _⟩ => ⟨S16x100x21, .f32⟩
  | .hbm, ⟨14, _⟩ => ⟨S_, .f32⟩
  | .hbm, ⟨15, _⟩ => ⟨S16x100, .f32⟩
  | .hbm, ⟨16, _⟩ => ⟨S16x100x1, .f32⟩
  | .hbm, ⟨17, _⟩ => ⟨S16x100x21, .f32⟩
  | .hbm, ⟨18, _⟩ => ⟨S16x100x21, .f32⟩
  | .hbm, ⟨19, _⟩ => ⟨S16x50x1, .i32⟩
  | .hbm, ⟨20, _⟩ => ⟨S1x1x21, .i32⟩
  | .hbm, ⟨21, _⟩ => ⟨S16x50x21, .i32⟩
  | .hbm, ⟨22, _⟩ => ⟨S16x50x21, .i32⟩
  | .hbm, ⟨23, _⟩ => ⟨S16x50x21, .i1⟩
  | .hbm, ⟨24, _⟩ => ⟨S16x50x21, .f32⟩
  | .hbm, ⟨25, _⟩ => ⟨S16x100x50, .f32⟩
  | .hbm, ⟨26, _⟩ => ⟨S16x100x50, .f32⟩
  | .hbm, ⟨27, _⟩ => ⟨S16x100x50, .f32⟩
  | .local _ .vmem, ⟨0, _⟩ => ⟨S1x100x4096, .f32⟩
  | .local _ .vmem, ⟨1, _⟩ => ⟨S1x100x4096, .f32⟩
  | .local _ .vmem, ⟨2, _⟩ => ⟨S1x50x4096, .f32⟩
  | .local _ .vmem, ⟨3, _⟩ => ⟨S1x50x4096, .f32⟩
  | .local _ .vmem, ⟨4, _⟩ => ⟨S1x100x50, .f32⟩
  | .local _ .vmem, ⟨5, _⟩ => ⟨S1x100x50, .f32⟩
  | .local _ .vmem, ⟨6, _⟩ => ⟨S100x50, .f32⟩
  | .local _ .vmem, ⟨7, _⟩ => ⟨S100x50, .f32⟩
  | .local _ .vmem, ⟨8, _⟩ => ⟨S100x1, .f32⟩
  | .local _ .vmem, ⟨9, _⟩ => ⟨S50x1, .f32⟩
  | _, _ => ⟨S16x100x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v75 : BitVec 1 := Scalar.cmpi .eq arg1 c3_i32
  let v76 : BitVec 32 := Scalar.extui v75
  let c0_i32_33 : BitVec 32 := 0#32
  let v77 : BitVec 1 := Scalar.cmpi .ne v76 c0_i32_33
  v77

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x100x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x50x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x100x50 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S100x50_S100x50_0_0 : ∀ a, (![0, 0] : Fin 2 → Nat) a + S100x50.size a ≤ S100x50.size a
  h_S100x50 : 0 < S100x50.numel
  shapeCasts_S100x50_S100x50 : S100x50.ShapeCasts S100x50
  inb_S100x1_S100x1_0_0 : ∀ a, (![0, 0] : Fin 2 → Nat) a + S100x1.size a ≤ S100x1.size a
  h_S100x1 : 0 < S100x1.numel
  shapeCasts_S100x1_S100x1 : S100x1.ShapeCasts S100x1
  inb_S50x1_S50x1_0_0 : ∀ a, (![0, 0] : Fin 2 → Nat) a + S50x1.size a ≤ S50x1.size a
  h_S50x1 : 0 < S50x1.numel
  shapeCasts_S50x1_S50x1 : S50x1.ShapeCasts S50x1
  inb_S1x100x4096_S1x100x4096_0_0_0 : ∀ a, (![0, 0, 0] : Fin 3 → Nat) a + S1x100x4096.size a ≤ S1x100x4096.size a
  h_S1x100x4096 : 0 < S1x100x4096.numel
  shapeCasts_S1x100x4096_S100x4096 : S1x100x4096.ShapeCasts S100x4096
  inb_S1x50x4096_S1x50x4096_0_0_0 : ∀ a, (![0, 0, 0] : Fin 3 → Nat) a + S1x50x4096.size a ≤ S1x50x4096.size a
  h_S1x50x4096 : 0 < S1x50x4096.numel
  shapeCasts_S1x50x4096_S50x4096 : S1x50x4096.ShapeCasts S50x4096
  bitsLt_bf16_f32 : FTy.bits .bf16 < FTy.bits .f32
  reduces_S100x4096_S100 : S100x4096.Reduces [1] S100
  shapeCasts_S100_S100x1 : S100.ShapeCasts S100x1
  reduces_S50x4096_S50 : S50x4096.Reduces [1] S50
  shapeCasts_S50_S50x1 : S50.ShapeCasts S50x1
  transposes_S50x1_p1_0_S1x50 : S50x1.Transposes [1, 0] S1x50
  broadcasts_S100x1_S100x50 : S100x1.Broadcasts S100x50
  broadcasts_S1x50_S100x50 : S1x50.Broadcasts S100x50
  inb_S1x100x50_S1x100x50_0_0_0 : ∀ a, (![0, 0, 0] : Fin 3 → Nat) a + S1x100x50.size a ≤ S1x100x50.size a
  h_S1x100x50 : 0 < S1x100x50.numel
  shapeCasts_S1x100x50_S100x50 : S1x100x50.ShapeCasts S100x50
  shapeCasts_S100x50_S1x100x50 : S100x50.ShapeCasts S1x100x50
  reducesTo_S16x100x21_S16x100_d2 : S16x100x21.ReducesTo [2] S16x100
  h_S_ : 0 < S_.numel
  bcast_S_S16x100 : S_.BroadcastsInDim S16x100 (![] : Fin 0 → Fin S16x100.rank)
  bcast_S16x100_S16x100x1_0_1 : S16x100.BroadcastsInDim S16x100x1 (![0, 1] : Fin 2 → Fin S16x100x1.rank)
  bcast_S16x100x1_S16x100x21_0_1_2 : S16x100x1.BroadcastsInDim S16x100x21 (![0, 1, 2] : Fin 3 → Fin S16x100x21.rank)
  bcast_S16x50_S16x50x1_0_1 : S16x50.BroadcastsInDim S16x50x1 (![0, 1] : Fin 2 → Fin S16x50x1.rank)
  bcast_S16x50x1_S16x50x21_0_1_2 : S16x50x1.BroadcastsInDim S16x50x21 (![0, 1, 2] : Fin 3 → Fin S16x50x21.rank)
  bcast_S1x1x21_S16x50x21_0_1_2 : S1x1x21.BroadcastsInDim S16x50x21 (![0, 1, 2] : Fin 3 → Fin S16x50x21.rank)
  dot_S100x4096_S50x4096_S100x50_1_1_0_0_n_n_wf : DotDims.WF S100x4096 S50x4096 S100x50 [1] [1] [0] [0] [] []
  dot_S16x100x21_S16x50x21_S16x100x50_2_2_1_1_0_0_wf : DotDims.WF S16x100x21 S16x50x21 S16x100x50 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x100x4096.size a ≤ S16x100x16384.size a
  hwx0_0 : ∀ i : grid0.Coords, EltTy.bits .f32 = 32 ∨ (Rect.block (s := S16x100x16384) S1x100x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x50x4096.size a ≤ S16x50x16384.size a
  hwx0_1 : ∀ i : grid0.Coords, EltTy.bits .f32 = 32 ∨ (Rect.block (s := S16x50x16384) S1x50x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x100x50.size a ≤ S16x100x50.size a
  hwx0_2 : ∀ i : grid0.Coords, EltTy.bits .f32 = 32 ∨ (Rect.block (s := S16x100x50) S1x100x50.size (cc0_transform_2 i) (hinb0_2 i)).WholeWords (EltTy.packing .f32)

variable [Facts₀]

def dot_S100x4096_S50x4096_S100x50_1_1_0_0_n_n : DotDims S100x4096 S50x4096 S100x50 where
  lhsContracting := [1]
  rhsContracting := [1]
  lhsNonContracting := [0]
  rhsNonContracting := [0]
  lhsBatch := []
  rhsBatch := []
  wf := dot_S100x4096_S50x4096_S100x50_1_1_0_0_n_n_wf
def dot_S16x100x21_S16x50x21_S16x100x50_2_2_1_1_0_0 : DotDims S16x100x21 S16x50x21 S16x100x50 where
  lhsContracting := [2]
  rhsContracting := [2]
  lhsNonContracting := [1]
  rhsNonContracting := [1]
  lhsBatch := [0]
  rhsBatch := [0]
  wf := dot_S16x100x21_S16x50x21_S16x100x50_2_2_1_1_0_0_wf

abbrev win0_0 : Pipeline.Window sig grid0 :=
  Pipeline.Window.ofSpec (Memref.whole main_arg0) S1x100x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x50x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x100x50.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x100x16384 : Shape := ⟨3, ![16, 100, 16384]⟩
abbrev S16x100x21 : Shape := ⟨3, ![16, 100, 21]⟩
abbrev S16x50x16384 : Shape := ⟨3, ![16, 50, 16384]⟩
abbrev S16x50 : Shape := ⟨2, ![16, 50]⟩
abbrev S_ : Shape := ⟨0, ![]⟩
abbrev S16x100 : Shape := ⟨2, ![16, 100]⟩
abbrev S16x100x1 : Shape := ⟨3, ![16, 100, 1]⟩
abbrev S16x50x1 : Shape := ⟨3, ![16, 50, 1]⟩
abbrev S1x1x21 : Shape := ⟨3, ![1, 1, 21]⟩
abbrev S16x50x21 : Shape := ⟨3, ![16, 50, 21]⟩
abbrev S16x100x50 : Shape := ⟨3, ![16, 100, 50]⟩
abbrev S16x1x50 : Shape := ⟨3, ![16, 1, 50]⟩

abbrev nBuf : Space → Nat
  | .hbm => 106
  | .vmem => 0
  | .smem => 0
  | _ => 0

abbrev bufTy : (tb : Table) → Fin (tcTables nBuf tb) → BufTy
  | .hbm, ⟨0, _⟩ => ⟨S16x100x16384, .f32⟩
  | .hbm, ⟨1, _⟩ => ⟨S16x100x21, .f32⟩
  | .hbm, ⟨2, _⟩ => ⟨S16x50x16384, .f32⟩
  | .hbm, ⟨3, _⟩ => ⟨S16x50, .i32⟩
  | .hbm, ⟨4, _⟩ => ⟨S_, .f32⟩
  | .hbm, ⟨5, _⟩ => ⟨S16x100, .f32⟩
  | .hbm, ⟨6, _⟩ => ⟨S_, .f32⟩
  | .hbm, ⟨7, _⟩ => ⟨S16x100, .f32⟩
  | .hbm, ⟨8, _⟩ => ⟨S16x100, .f32⟩
  | .hbm, ⟨9, _⟩ => ⟨S16x100x1, .f32⟩
  | .hbm, ⟨10, _⟩ => ⟨S16x100x21, .f32⟩
  | .hbm, ⟨11, _⟩ => ⟨S16x100x21, .f32⟩
  | .hbm, ⟨12, _⟩ => ⟨S16x100x21, .f32⟩
  | .hbm, ⟨13, _⟩ => ⟨S_, .f32⟩
  | .hbm, ⟨14, _⟩ => ⟨S16x100, .f32⟩
  | .hbm, ⟨15, _⟩ => ⟨S16x100x1, .f32⟩
  | .hbm, ⟨16, _⟩ => ⟨S16x100x21, .f32⟩
  | .hbm, ⟨17, _⟩ => ⟨S16x100x21, .f32⟩
  | .hbm, ⟨18, _⟩ => ⟨S16x50x1, .i32⟩
  | .hbm, ⟨19, _⟩ => ⟨S1x1x21, .i32⟩
  | .hbm, ⟨20, _⟩ => ⟨S16x50x21, .i32⟩
  | .hbm, ⟨21, _⟩ => ⟨S16x50x21, .i32⟩
  | .hbm, ⟨22, _⟩ => ⟨S16x50x21, .i1⟩
  | .hbm, ⟨23, _⟩ => ⟨S16x50x21, .f32⟩
  | .hbm, ⟨24, _⟩ => ⟨S16x100x50, .f32⟩
  | .hbm, ⟨25, _⟩ => ⟨S16x100x50, .f32⟩
  | .hbm, ⟨26, _⟩ => ⟨S16x100x16384, .f32⟩
  | .hbm, ⟨27, _⟩ => ⟨S_, .f32⟩
  | .hbm, ⟨28, _⟩ => ⟨S16x100x16384, .f32⟩
  | .hbm, ⟨29, _⟩ => ⟨S16x100x16384, .f32⟩
  | .hbm, ⟨30, _⟩ => ⟨S16x100x16384, .f32⟩
  | .hbm, ⟨31, _⟩ => ⟨S16x100x16384, .f32⟩
  | .hbm, ⟨32, _⟩ => ⟨S16x100x16384, .i1⟩
  | .hbm, ⟨33, _⟩ => ⟨S16x100x16384, .f32⟩
  | .hbm, ⟨34, _⟩ => ⟨S16x100x16384, .f32⟩
  | .hbm, ⟨35, _⟩ => ⟨S16x100x16384, .f32⟩
  | .hbm, ⟨36, _⟩ => ⟨S16x100x16384, .f32⟩
  | .hbm, ⟨37, _⟩ => ⟨S16x100x16384, .f32⟩
  | .hbm, ⟨38, _⟩ => ⟨S16x100x16384, .f32⟩
  | .hbm, ⟨39, _⟩ => ⟨S16x100x16384, .f32⟩
  | .hbm, ⟨40, _⟩ => ⟨S16x100x16384, .f32⟩
  | .hbm, ⟨41, _⟩ => ⟨S_, .f32⟩
  | .hbm, ⟨42, _⟩ => ⟨S16x100x16384, .f32⟩
  | .hbm, ⟨43, _⟩ => ⟨S16x100x16384, .f32⟩
  | .hbm, ⟨44, _⟩ => ⟨S16x100x16384, .f32⟩
  | .hbm, ⟨45, _⟩ => ⟨S16x100x16384, .f32⟩
  | .hbm, ⟨46, _⟩ => ⟨S16x100x16384, .i1⟩
  | .hbm, ⟨47, _⟩ => ⟨S16x100x16384, .f32⟩
  | .hbm, ⟨48, _⟩ => ⟨S16x100x16384, .f32⟩
  | .hbm, ⟨49, _⟩ => ⟨S16x100x16384, .f32⟩
  | .hbm, ⟨50, _⟩ => ⟨S16x100x16384, .f32⟩
  | .hbm, ⟨51, _⟩ => ⟨S16x100x16384, .f32⟩
  | .hbm, ⟨52, _⟩ => ⟨S16x100x16384, .f32⟩
  | .hbm, ⟨53, _⟩ => ⟨S16x100x16384, .f32⟩
  | .hbm, ⟨54, _⟩ => ⟨S16x100x16384, .f32⟩
  | .hbm, ⟨55, _⟩ => ⟨S16x100x50, .f32⟩
  | .hbm, ⟨56, _⟩ => ⟨S_, .f32⟩
  | .hbm, ⟨57, _⟩ => ⟨S16x50x16384, .f32⟩
  | .hbm, ⟨58, _⟩ => ⟨S16x50x16384, .f32⟩
  | .hbm, ⟨59, _⟩ => ⟨S16x100x50, .f32⟩
  | .hbm, ⟨60, _⟩ => ⟨S16x100x50, .f32⟩
  | .hbm, ⟨61, _⟩ => ⟨S_, .f32⟩
  | .hbm, ⟨62, _⟩ => ⟨S16x100x50, .f32⟩
  | .hbm, ⟨63, _⟩ => ⟨S16x100x50, .f32⟩
  | .hbm, ⟨64, _⟩ => ⟨S16x100x16384, .f32⟩
  | .hbm, ⟨65, _⟩ => ⟨S16x100x16384, .f32⟩
  | .hbm, ⟨66, _⟩ => ⟨S_, .f32⟩
  | .hbm, ⟨67, _⟩ => ⟨S16x100x16384, .f32⟩
  | .hbm, ⟨68, _⟩ => ⟨S16x100x16384, .f32⟩
  | .hbm, ⟨69, _⟩ => ⟨S_, .f32⟩
  | .hbm, ⟨70, _⟩ => ⟨S16x100x16384, .f32⟩
  | .hbm, ⟨71, _⟩ => ⟨S16x100x16384, .f32⟩
  | .hbm, ⟨72, _⟩ => ⟨S16x100x50, .f32⟩
  | .hbm, ⟨73, _⟩ => ⟨S_, .f32⟩
  | .hbm, ⟨74, _⟩ => ⟨S16x100x50, .f32⟩
  | .hbm, ⟨75, _⟩ => ⟨S16x100x50, .f32⟩
  | .hbm, ⟨76, _⟩ => ⟨S_, .f32⟩
  | .hbm, ⟨77, _⟩ => ⟨S16x100, .f32⟩
  | .hbm, ⟨78, _⟩ => ⟨S16x100x1, .f32⟩
  | .hbm, ⟨79, _⟩ => ⟨S_, .f32⟩
  | .hbm, ⟨80, _⟩ => ⟨S16x50, .f32⟩
  | .hbm, ⟨81, _⟩ => ⟨S16x1x50, .f32⟩
  | .hbm, ⟨82, _⟩ => ⟨S16x100x50, .f32⟩
  | .hbm, ⟨83, _⟩ => ⟨S16x100x50, .f32⟩
  | .hbm, ⟨84, _⟩ => ⟨S16x100x50, .f32⟩
  | .hbm, ⟨85, _⟩ => ⟨S_, .f32⟩
  | .hbm, ⟨86, _⟩ => ⟨S16x100x50, .f32⟩
  | .hbm, ⟨87, _⟩ => ⟨S16x100x50, .f32⟩
  | .hbm, ⟨88, _⟩ => ⟨S_, .f32⟩
  | .hbm, ⟨89, _⟩ => ⟨S16x100x50, .f32⟩
  | .hbm, ⟨90, _⟩ => ⟨S16x100x50, .f32⟩
  | .hbm, ⟨91, _⟩ => ⟨S16x100x50, .f32⟩
  | .hbm, ⟨92, _⟩ => ⟨S_, .f32⟩
  | .hbm, ⟨93, _⟩ => ⟨S16x100x50, .f32⟩
  | .hbm, ⟨94, _⟩ => ⟨S16x100x50, .f32⟩
  | .hbm, ⟨95, _⟩ => ⟨S_, .f32⟩
  | .hbm, ⟨96, _⟩ => ⟨S16x100x50, .f32⟩
  | .hbm, ⟨97, _⟩ => ⟨S16x100x50, .f32⟩
  | .hbm, ⟨98, _⟩ => ⟨S_, .f32⟩
  | .hbm, ⟨99, _⟩ => ⟨S16x100x50, .f32⟩
  | .hbm, ⟨100, _⟩ => ⟨S16x100x50, .f32⟩
  | .hbm, ⟨101, _⟩ => ⟨S16x100x50, .f32⟩
  | .hbm, ⟨102, _⟩ => ⟨S_, .f32⟩
  | .hbm, ⟨103, _⟩ => ⟨S16x100x50, .f32⟩
  | .hbm, ⟨104, _⟩ => ⟨S16x100x50, .f32⟩
  | .hbm, ⟨105, _⟩ => ⟨S16x100x50, .f32⟩
  | _, _ => ⟨S16x100x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call1_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_v15 : Ref sig .tc := ⟨.hbm, 40, rfl⟩
abbrev main_call2_cst : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_v16 : Ref sig .tc := ⟨.hbm, 54, rfl⟩
abbrev main_v17 : Ref sig .tc := ⟨.hbm, 55, rfl⟩
abbrev main_cst_2 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_cst_3 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_cst_4 : Ref sig .tc := ⟨.hbm, 66, rfl⟩
abbrev main_v26 : Ref sig .tc := ⟨.hbm, 67, rfl⟩
abbrev main_v27 : Ref sig .tc := ⟨.hbm, 68, rfl⟩
abbrev main_cst_5 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_cst_6 : Ref sig .tc := ⟨.hbm, 73, rfl⟩
abbrev main_v31 : Ref sig .tc := ⟨.hbm, 74, rfl⟩
abbrev main_v32 : Ref sig .tc := ⟨.hbm, 75, rfl⟩
abbrev main_cst_7 : Ref sig .tc := ⟨.hbm, 76, rfl⟩
abbrev main_v33 : Ref sig .tc := ⟨.hbm, 77, rfl⟩
abbrev main_v34 : Ref sig .tc := ⟨.hbm, 78, rfl⟩
abbrev main_cst_8 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_cst_9 : Ref sig .tc := ⟨.hbm, 85, rfl⟩
abbrev main_v40 : Ref sig .tc := ⟨.hbm, 86, rfl⟩
abbrev main_v41 : Ref sig .tc := ⟨.hbm, 87, rfl⟩
abbrev main_cst_10 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_cst_11 : Ref sig .tc := ⟨.hbm, 92, rfl⟩
abbrev main_v45 : Ref sig .tc := ⟨.hbm, 93, rfl⟩
abbrev main_v46 : Ref sig .tc := ⟨.hbm, 94, rfl⟩
abbrev main_cst_12 : Ref sig .tc := ⟨.hbm, 95, rfl⟩
abbrev main_v47 : Ref sig .tc := ⟨.hbm, 96, rfl⟩
abbrev main_v48 : Ref sig .tc := ⟨.hbm, 97, rfl⟩
abbrev main_cst_13 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_cst_14 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩

abbrev nD : Nat := 1
abbrev τ : Topo := Topo.v7x

variable {F : FTy → Type} [FloatOps F]

class Facts₀ : Prop where
  reducesTo_S16x100x21_S16x100_d2 : S16x100x21.ReducesTo [2] S16x100
  h_S_ : 0 < S_.numel
  bcast_S_S16x100 : S_.BroadcastsInDim S16x100 (![] : Fin 0 → Fin S16x100.rank)
  bcast_S16x100_S16x100x1_0_1 : S16x100.BroadcastsInDim S16x100x1 (![0, 1] : Fin 2 → Fin S16x100x1.rank)
  bcast_S16x100x1_S16x100x21_0_1_2 : S16x100x1.BroadcastsInDim S16x100x21 (![0, 1, 2] : Fin 3 → Fin S16x100x21.rank)
  bcast_S16x50_S16x50x1_0_1 : S16x50.BroadcastsInDim S16x50x1 (![0, 1] : Fin 2 → Fin S16x50x1.rank)
  bcast_S16x50x1_S16x50x21_0_1_2 : S16x50x1.BroadcastsInDim S16x50x21 (![0, 1, 2] : Fin 3 → Fin S16x50x21.rank)
  bcast_S1x1x21_S16x50x21_0_1_2 : S1x1x21.BroadcastsInDim S16x50x21 (![0, 1, 2] : Fin 3 → Fin S16x50x21.rank)
  bcast_S_S16x100x16384 : S_.BroadcastsInDim S16x100x16384 (![] : Fin 0 → Fin S16x100x16384.rank)
  bcast_S_S16x50x16384 : S_.BroadcastsInDim S16x50x16384 (![] : Fin 0 → Fin S16x50x16384.rank)
  bcast_S_S16x100x50 : S_.BroadcastsInDim S16x100x50 (![] : Fin 0 → Fin S16x100x50.rank)
  reducesTo_S16x100x16384_S16x100_d2 : S16x100x16384.ReducesTo [2] S16x100
  reducesTo_S16x50x16384_S16x50_d2 : S16x50x16384.ReducesTo [2] S16x50
  bcast_S16x50_S16x1x50_0_2 : S16x50.BroadcastsInDim S16x1x50 (![0, 2] : Fin 2 → Fin S16x1x50.rank)
  bcast_S16x100x1_S16x100x50_0_1_2 : S16x100x1.BroadcastsInDim S16x100x50 (![0, 1, 2] : Fin 3 → Fin S16x100x50.rank)
  bcast_S16x1x50_S16x100x50_0_1_2 : S16x1x50.BroadcastsInDim S16x100x50 (![0, 1, 2] : Fin 3 → Fin S16x100x50.rank)
  dot_S16x100x21_S16x50x21_S16x100x50_2_2_1_1_0_0_wf : DotDims.WF S16x100x21 S16x50x21 S16x100x50 [2] [2] [1] [1] [0] [0]
  dot_S16x100x16384_S16x50x16384_S16x100x50_2_2_1_1_0_0_wf : DotDims.WF S16x100x16384 S16x50x16384 S16x100x50 [2] [2] [1] [1] [0] [0]

variable [Facts₀]

def dot_S16x100x21_S16x50x21_S16x100x50_2_2_1_1_0_0 : DotDims S16x100x21 S16x50x21 S16x100x50 where
  lhsContracting := [2]
  rhsContracting := [2]
  lhsNonContracting := [1]
  rhsNonContracting := [1]
  lhsBatch := [0]
  rhsBatch := [0]
  wf := dot_S16x100x21_S16x50x21_S16x100x50_2_2_1_1_0_0_wf
def dot_S16x100x16384_S16x50x16384_S16x100x50_2_2_1_1_0_0 : DotDims S16x100x16384 S16x50x16384 S16x100x50 where
  lhsContracting := [2]
  rhsContracting := [2]
  lhsNonContracting := [1]
  rhsNonContracting := [1]
  lhsBatch := [0]
  rhsBatch := [0]
  wf := dot_S16x100x16384_S16x50x16384_S16x100x50_2_2_1_1_0_0_wf

class Facts : Prop extends Facts₀ where

variable [Facts]
-- ==== Proof.Pieces.lean ====
/-
  What each control case of the vector program leaves in the four carried accumulators and in the output block,
  as pure values of the point's two input tiles and of what the accumulators held before.

  The first point of a batch element stores zeros and then adds the tile's contribution to them; a middle point adds
  the tile's contribution to what the point before left; the last point does the same and then writes the output
  block from the four updated accumulators.
-/
import proofs.«124107_j2164663517209_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]
variable (c : Dev nD) (i : grid0.Coords)
  (arg2 : Memref sig .tc .vmem S1x100x4096 .f32) (harg2 : arg2.IsWhole)
  (arg3 : Memref sig .tc .vmem S1x50x4096 .f32) (harg3 : arg3.IsWhole)
  (arg4 : Memref sig .tc .vmem S1x100x50 .f32) (harg4 : arg4.IsWhole)
  (arg5 : Memref sig .tc .vmem S100x50 .f32) (harg5 : arg5.IsWhole)
  (arg6 : Memref sig .tc .vmem S100x50 .f32) (harg6 : arg6.IsWhole)
  (arg7 : Memref sig .tc .vmem S100x1 .f32) (harg7 : arg7.IsWhole)
  (arg8 : Memref sig .tc .vmem S50x1 .f32) (harg8 : arg8.IsWhole)
  (x0 : Vec F S1x100x4096 .f32) (x1 : Vec F S1x50x4096 .f32)

theorem hz2 : (![0, 0] : Fin 2 → Nat) = fun _ => 0 := funext fun a => by fin_cases a <;> rfl
theorem hz3 : (![0, 0, 0] : Fin 3 → Nat) = fun _ => 0 := funext fun a => by fin_cases a <;> rfl

/-- First point: the cost accumulator holds the tile's contribution added to the stored zeros. -/
theorem first_0 (hc0 : cond0_0 i) (hc1 : ¬cond0_1 i) :
    sout0_A_0 c i arg2 harg2 arg3 harg3 arg4 harg4 arg5 harg5 arg6 harg6 arg7 harg7 arg8 harg8 hc0 hc1 x0 x1 = k0_pay14 (k0_pay7 x1) (k0_pay9 x0) (k0_pay10 x0) (k0_pay12 x1) (k0_pay13 (F := F)) (k0_pay2 (F := F)) := by
  unfold sout0_A_0
  rw [View.read_writes_eq_canon _ _ _ (scover0_A_0 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S100x50) hz2, View.readCov_unit_zero (S := S100x50) _ hz2]
  simp only [View.readAt_eq_ld, harg2.read_unread, harg3.read_unread, harg5.read_unread, harg6.read_unread, harg7.read_unread, harg8.read_unread, View.ld_unit_zero (S := S100x50) hz2, View.ld_unit_zero (S := S100x1) hz2, View.ld_unit_zero (S := S50x1) hz2, View.ld_unit_zero (S := S1x100x4096) hz3, View.ld_unit_zero (S := S1x50x4096) hz3]

/-- First point: the numerator accumulator holds the tile's contribution added to the stored zeros. -/
theorem first_1 (hc0 : cond0_0 i) (hc1 : ¬cond0_1 i) :
    sout0_A_1 c i arg2 harg2 arg3 harg3 arg4 harg4 arg5 harg5 arg6 harg6 arg7 harg7 arg8 harg8 hc0 hc1 x0 x1 = k0_pay15 (k0_pay11 x0) (k0_pay12 x1) (k0_pay3 (F := F)) := by
  unfold sout0_A_1
  rw [View.read_writes_eq_canon _ _ _ (scover0_A_1 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S100x50) hz2, View.readCov_unit_zero (S := S100x50) _ hz2]
  simp only [View.readAt_eq_ld, harg2.read_unread, harg3.read_unread, harg5.read_unread, harg6.read_unread, harg7.read_unread, harg8.read_unread, View.ld_unit_zero (S := S100x50) hz2, View.ld_unit_zero (S := S100x1) hz2, View.ld_unit_zero (S := S50x1) hz2, View.ld_unit_zero (S := S1x100x4096) hz3, View.ld_unit_zero (S := S1x50x4096) hz3]

/-- First point: the probability row sums holds the tile's contribution added to the stored zeros. -/
theorem first_2 (hc0 : cond0_0 i) (hc1 : ¬cond0_1 i) :
    sout0_A_2 c i arg2 harg2 arg3 harg3 arg4 harg4 arg5 harg5 arg6 harg6 arg7 harg7 arg8 harg8 hc0 hc1 x0 x1 = k0_pay16 (k0_pay8 x0) (k0_pay4 (F := F)) := by
  unfold sout0_A_2
  rw [View.read_writes_eq_canon _ _ _ (scover0_A_2 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S100x1) hz2, View.readCov_unit_zero (S := S100x1) _ hz2]
  simp only [View.readAt_eq_ld, harg2.read_unread, harg3.read_unread, harg5.read_unread, harg6.read_unread, harg7.read_unread, harg8.read_unread, View.ld_unit_zero (S := S100x50) hz2, View.ld_unit_zero (S := S100x1) hz2, View.ld_unit_zero (S := S50x1) hz2, View.ld_unit_zero (S := S1x100x4096) hz3, View.ld_unit_zero (S := S1x50x4096) hz3]

/-- First point: the target row sums holds the tile's contribution added to the stored zeros. -/
theorem first_3 (hc0 : cond0_0 i) (hc1 : ¬cond0_1 i) :
    sout0_A_3 c i arg2 harg2 arg3 harg3 arg4 harg4 arg5 harg5 arg6 harg6 arg7 harg7 arg8 harg8 hc0 hc1 x0 x1 = k0_pay17 (k0_pay7 x1) (k0_pay5 (F := F)) := by
  unfold sout0_A_3
  rw [View.read_writes_eq_canon _ _ _ (scover0_A_3 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S50x1) hz2, View.readCov_unit_zero (S := S50x1) _ hz2]
  simp only [View.readAt_eq_ld, harg2.read_unread, harg3.read_unread, harg5.read_unread, harg6.read_unread, harg7.read_unread, harg8.read_unread, View.ld_unit_zero (S := S100x50) hz2, View.ld_unit_zero (S := S100x1) hz2, View.ld_unit_zero (S := S50x1) hz2, View.ld_unit_zero (S := S1x100x4096) hz3, View.ld_unit_zero (S := S1x50x4096) hz3]

/-- Middle point: the cost accumulator holds what the point before left plus the tile's contribution. -/
theorem middle_0 (hc0 : ¬cond0_0 i) (hc1 : ¬cond0_1 i) (xs0 xs1 : Vec F S100x50 .f32) (xs2 : Vec F S100x1 .f32) (xs3 : Vec F S50x1 .f32) :
    sout0_B_0 c i arg2 harg2 arg3 harg3 arg4 harg4 arg5 harg5 arg6 harg6 arg7 harg7 arg8 harg8 hc0 hc1 x0 x1 xs0 xs1 xs2 xs3 = k0_pay14 (k0_pay7 x1) (k0_pay9 x0) (k0_pay10 x0) (k0_pay12 x1) (k0_pay13 (F := F)) xs0 := by
  unfold sout0_B_0
  rw [View.read_writes_eq_canon _ _ _ (scover0_B_0 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero hz2]
  simp only [View.readAt_eq_ld, harg2.read_unread, harg3.read_unread, harg5.read_unread, harg6.read_unread, harg7.read_unread, harg8.read_unread, View.ld_unit_zero (S := S100x50) hz2, View.ld_unit_zero (S := S100x1) hz2, View.ld_unit_zero (S := S50x1) hz2, View.ld_unit_zero (S := S1x100x4096) hz3, View.ld_unit_zero (S := S1x50x4096) hz3]

/-- Middle point: the numerator accumulator holds what the point before left plus the tile's contribution. -/
theorem middle_1 (hc0 : ¬cond0_0 i) (hc1 : ¬cond0_1 i) (xs0 xs1 : Vec F S100x50 .f32) (xs2 : Vec F S100x1 .f32) (xs3 : Vec F S50x1 .f32) :
    sout0_B_1 c i arg2 harg2 arg3 harg3 arg4 harg4 arg5 harg5 arg6 harg6 arg7 harg7 arg8 harg8 hc0 hc1 x0 x1 xs0 xs1 xs2 xs3 = k0_pay15 (k0_pay11 x0) (k0_pay12 x1) xs1 := by
  unfold sout0_B_1
  rw [View.read_writes_eq_canon _ _ _ (scover0_B_1 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero hz2]
  simp only [View.readAt_eq_ld, harg2.read_unread, harg3.read_unread, harg5.read_unread, harg6.read_unread, harg7.read_unread, harg8.read_unread, View.ld_unit_zero (S := S100x50) hz2, View.ld_unit_zero (S := S100x1) hz2, View.ld_unit_zero (S := S50x1) hz2, View.ld_unit_zero (S := S1x100x4096) hz3, View.ld_unit_zero (S := S1x50x4096) hz3]

/-- Middle point: the probability row sums holds what the point before left plus the tile's contribution. -/
theorem middle_2 (hc0 : ¬cond0_0 i) (hc1 : ¬cond0_1 i) (xs0 xs1 : Vec F S100x50 .f32) (xs2 : Vec F S100x1 .f32) (xs3 : Vec F S50x1 .f32) :
    sout0_B_2 c i arg2 harg2 arg3 harg3 arg4 harg4 arg5 harg5 arg6 harg6 arg7 harg7 arg8 harg8 hc0 hc1 x0 x1 xs0 xs1 xs2 xs3 = k0_pay16 (k0_pay8 x0) xs2 := by
  unfold sout0_B_2
  rw [View.read_writes_eq_canon _ _ _ (scover0_B_2 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero hz2]
  simp only [View.readAt_eq_ld, harg2.read_unread, harg3.read_unread, harg5.read_unread, harg6.read_unread, harg7.read_unread, harg8.read_unread, View.ld_unit_zero (S := S100x50) hz2, View.ld_unit_zero (S := S100x1) hz2, View.ld_unit_zero (S := S50x1) hz2, View.ld_unit_zero (S := S1x100x4096) hz3, View.ld_unit_zero (S := S1x50x4096) hz3]

/-- Middle point: the target row sums holds what the point before left plus the tile's contribution. -/
theorem middle_3 (hc0 : ¬cond0_0 i) (hc1 : ¬cond0_1 i) (xs0 xs1 : Vec F S100x50 .f32) (xs2 : Vec F S100x1 .f32) (xs3 : Vec F S50x1 .f32) :
    sout0_B_3 c i arg2 harg2 arg3 harg3 arg4 harg4 arg5 harg5 arg6 harg6 arg7 harg7 arg8 harg8 hc0 hc1 x0 x1 xs0 xs1 xs2 xs3 = k0_pay17 (k0_pay7 x1) xs3 := by
  unfold sout0_B_3
  rw [View.read_writes_eq_canon _ _ _ (scover0_B_3 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero hz2]
  simp only [View.readAt_eq_ld, harg2.read_unread, harg3.read_unread, harg5.read_unread, harg6.read_unread, harg7.read_unread, harg8.read_unread, View.ld_unit_zero (S := S100x50) hz2, View.ld_unit_zero (S := S100x1) hz2, View.ld_unit_zero (S := S50x1) hz2, View.ld_unit_zero (S := S1x100x4096) hz3, View.ld_unit_zero (S := S1x50x4096) hz3]

/-- Last point: the cost accumulator holds what the point before left plus the tile's contribution. -/
theorem last_0 (hc0 : ¬cond0_0 i) (hc1 : cond0_1 i) (xs0 xs1 : Vec F S100x50 .f32) (xs2 : Vec F S100x1 .f32) (xs3 : Vec F S50x1 .f32) :
    sout0_C_0 c i arg2 harg2 arg3 harg3 arg4 harg4 arg5 harg5 arg6 harg6 arg7 harg7 arg8 harg8 hc0 hc1 x0 x1 xs0 xs1 xs2 xs3 = k0_pay14 (k0_pay7 x1) (k0_pay9 x0) (k0_pay10 x0) (k0_pay12 x1) (k0_pay13 (F := F)) xs0 := by
  unfold sout0_C_0
  rw [View.read_writes_eq_canon _ _ _ (scover0_C_0 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero hz2]
  simp only [View.readAt_eq_ld, harg2.read_unread, harg3.read_unread, harg5.read_unread, harg6.read_unread, harg7.read_unread, harg8.read_unread, View.ld_unit_zero (S := S100x50) hz2, View.ld_unit_zero (S := S100x1) hz2, View.ld_unit_zero (S := S50x1) hz2, View.ld_unit_zero (S := S1x100x4096) hz3, View.ld_unit_zero (S := S1x50x4096) hz3]

/-- Last point: the numerator accumulator holds what the point before left plus the tile's contribution. -/
theorem last_1 (hc0 : ¬cond0_0 i) (hc1 : cond0_1 i) (xs0 xs1 : Vec F S100x50 .f32) (xs2 : Vec F S100x1 .f32) (xs3 : Vec F S50x1 .f32) :
    sout0_C_1 c i arg2 harg2 arg3 harg3 arg4 harg4 arg5 harg5 arg6 harg6 arg7 harg7 arg8 harg8 hc0 hc1 x0 x1 xs0 xs1 xs2 xs3 = k0_pay15 (k0_pay11 x0) (k0_pay12 x1) xs1 := by
  unfold sout0_C_1
  rw [View.read_writes_eq_canon _ _ _ (scover0_C_1 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero hz2]
  simp only [View.readAt_eq_ld, harg2.read_unread, harg3.read_unread, harg5.read_unread, harg6.read_unread, harg7.read_unread, harg8.read_unread, View.ld_unit_zero (S := S100x50) hz2, View.ld_unit_zero (S := S100x1) hz2, View.ld_unit_zero (S := S50x1) hz2, View.ld_unit_zero (S := S1x100x4096) hz3, View.ld_unit_zero (S := S1x50x4096) hz3]

/-- Last point: the probability row sums holds what the point before left plus the tile's contribution. -/
theorem last_2 (hc0 : ¬cond0_0 i) (hc1 : cond0_1 i) (xs0 xs1 : Vec F S100x50 .f32) (xs2 : Vec F S100x1 .f32) (xs3 : Vec F S50x1 .f32) :
    sout0_C_2 c i arg2 harg2 arg3 harg3 arg4 harg4 arg5 harg5 arg6 harg6 arg7 harg7 arg8 harg8 hc0 hc1 x0 x1 xs0 xs1 xs2 xs3 = k0_pay16 (k0_pay8 x0) xs2 := by
  unfold sout0_C_2
  rw [View.read_writes_eq_canon _ _ _ (scover0_C_2 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero hz2]
  simp only [View.readAt_eq_ld, harg2.read_unread, harg3.read_unread, harg5.read_unread, harg6.read_unread, harg7.read_unread, harg8.read_unread, View.ld_unit_zero (S := S100x50) hz2, View.ld_unit_zero (S := S100x1) hz2, View.ld_unit_zero (S := S50x1) hz2, View.ld_unit_zero (S := S1x100x4096) hz3, View.ld_unit_zero (S := S1x50x4096) hz3]

/-- Last point: the target row sums holds what the point before left plus the tile's contribution. -/
theorem last_3 (hc0 : ¬cond0_0 i) (hc1 : cond0_1 i) (xs0 xs1 : Vec F S100x50 .f32) (xs2 : Vec F S100x1 .f32) (xs3 : Vec F S50x1 .f32) :
    sout0_C_3 c i arg2 harg2 arg3 harg3 arg4 harg4 arg5 harg5 arg6 harg6 arg7 harg7 arg8 harg8 hc0 hc1 x0 x1 xs0 xs1 xs2 xs3 = k0_pay17 (k0_pay7 x1) xs3 := by
  unfold sout0_C_3
  rw [View.read_writes_eq_canon _ _ _ (scover0_C_3 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero hz2]
  simp only [View.readAt_eq_ld, harg2.read_unread, harg3.read_unread, harg5.read_unread, harg6.read_unread, harg7.read_unread, harg8.read_unread, View.ld_unit_zero (S := S100x50) hz2, View.ld_unit_zero (S := S100x1) hz2, View.ld_unit_zero (S := S50x1) hz2, View.ld_unit_zero (S := S1x100x4096) hz3, View.ld_unit_zero (S := S1x50x4096) hz3]

/-- Last point: the output block is the combination of the four accumulators as just updated. -/
theorem last_out (hc0 : ¬cond0_0 i) (hc1 : cond0_1 i) (xs0 xs1 : Vec F S100x50 .f32) (xs2 : Vec F S100x1 .f32) (xs3 : Vec F S50x1 .f32) :
    out0_C_2 c i arg2 harg2 arg3 harg3 arg4 harg4 arg5 harg5 arg6 harg6 arg7 harg7 arg8 harg8 hc0 hc1 x0 x1 xs0 xs1 xs2 xs3
      = k0_pay1 (k0_pay14 (k0_pay7 x1) (k0_pay9 x0) (k0_pay10 x0) (k0_pay12 x1) (k0_pay13 (F := F)) xs0) (k0_pay17 (k0_pay7 x1) xs3) (k0_pay16 (k0_pay8 x0) xs2) (k0_pay15 (k0_pay11 x0) (k0_pay12 x1) xs1) := by
  unfold out0_C_2
  rw [View.read_writes_eq_canon _ _ _ (cover0_C_2 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero hz3]
  simp only [View.readCov_unit_zero (S := S100x50) _ hz2, View.readCov_unit_zero (S := S100x1) _ hz2,
    View.readCov_unit_zero (S := S50x1) _ hz2, View.readAt_eq_ld, harg2.read_unread, harg3.read_unread, harg5.read_unread, harg6.read_unread, harg7.read_unread, harg8.read_unread, View.ld_unit_zero (S := S100x50) hz2, View.ld_unit_zero (S := S100x1) hz2, View.ld_unit_zero (S := S50x1) hz2, View.ld_unit_zero (S := S1x100x4096) hz3, View.ld_unit_zero (S := S1x50x4096) hz3]

end Cert.KernelIdeal.Pieces

end
-- ==== Proof.LibSumBlocks.lean ====
/-
  A sum over `Fin (A * B)` read block by block.

  An index `n < A · B` is uniquely `a · B + b` with `a < A` and `b < B` (division with remainder), so a sum over
  all `n` is the sum over the blocks `a` of the sums over the positions `b` inside a block.  Iterated three times
  this splits a sum over `C · I · K · R` indices into four nested sums; the case `2 · 64 · 16 · 512 = 1048576` is
  stated separately.  Only commutativity and associativity of the addition are used, so the statements hold in any
  additive commutative monoid (the extended reals included, infinite entries or not).
-/
import Mathlib.Algebra.BigOperators.Fin
import Mathlib.Logic.Equiv.Fin.Basic
import Mathlib.Data.Fintype.BigOperators

open scoped BigOperators

namespace Idealize.ShloMosaic.SumBlocks

/-- The index `a · B + b` of position `b` in block `a` is below `A · B`. -/
theorem idx_lt {A B : ℕ} (a : Fin A) (b : Fin B) : a.val * B + b.val < A * B :=
  calc a.val * B + b.val < a.val * B + B := Nat.add_lt_add_left b.isLt _
    _ = (a.val + 1) * B := (Nat.succ_mul _ _).symm
    _ ≤ A * B := Nat.mul_le_mul_right B a.isLt

/-- A sum over `Fin (A * B)` is the sum over the `A` blocks of the sums over the `B` positions of a block. -/
theorem sum_blocks {M : Type*} [AddCommMonoid M] {A B : ℕ} (f : Fin (A * B) → M) :
    ∑ n, f n = ∑ a : Fin A, ∑ b : Fin B, f ⟨a.val * B + b.val, idx_lt a b⟩ := by
  rw [← Equiv.sum_comp finProdFinEquiv f, Fintype.sum_prod_type]
  refine Finset.sum_congr rfl fun a _ => Finset.sum_congr rfl fun b _ => congrArg f (Fin.ext ?_)
  simp only [finProdFinEquiv_apply_val]
  rw [Nat.add_comm, Nat.mul_comm]

/-- The index of position `r` of block `k` of block `i` of block `c` is below `C · I · K · R`. -/
theorem idx4_lt {C I K R : ℕ} (c : Fin C) (i : Fin I) (k : Fin K) (r : Fin R) :
    ((c.val * I + i.val) * K + k.val) * R + r.val < C * I * K * R :=
  idx_lt (⟨(c.val * I + i.val) * K + k.val, idx_lt (⟨c.val * I + i.val, idx_lt c i⟩ : Fin (C * I)) k⟩ : Fin (C * I * K)) r

/-- A sum over `Fin (C * I * K * R)` as four nested sums. -/
theorem sum_blocks4 {M : Type*} [AddCommMonoid M] {C I K R : ℕ} (f : Fin (C * I * K * R) → M) :
    ∑ n, f n = ∑ c : Fin C, ∑ i : Fin I, ∑ k : Fin K, ∑ r : Fin R,
      f ⟨((c.val * I + i.val) * K + k.val) * R + r.val, idx4_lt c i k r⟩ := by
  rw [sum_blocks f,
    sum_blocks (fun x : Fin (C * I * K) => ∑ r : Fin R, f ⟨x.val * R + r.val, idx_lt x r⟩),
    sum_blocks (fun y : Fin (C * I) => ∑ k : Fin K, ∑ r : Fin R,
      f ⟨(y.val * K + k.val) * R + r.val, idx_lt (⟨y.val * K + k.val, idx_lt y k⟩ : Fin (C * I * K)) r⟩)]

/-- The index of row `r` of tile `k` of step `i` of half `c` is below `1048576 = 2 · 64 · 16 · 512`. -/
theorem idx_1048576_lt (c : Fin 2) (i : Fin 64) (k : Fin 16) (r : Fin 512) :
    ((c.val * 64 + i.val) * 16 + k.val) * 512 + r.val < 1048576 :=
  idx4_lt c i k r

/-- A sum over `Fin 1048576` as nested sums over `2`, `64`, `16` and `512` indices. -/
theorem sum_1048576 {M : Type*} [AddCommMonoid M] (f : Fin 1048576 → M) :
    ∑ n, f n = ∑ c : Fin 2, ∑ i : Fin 64, ∑ k : Fin 16, ∑ r : Fin 512,
      f ⟨((c.val * 64 + i.val) * 16 + k.val) * 512 + r.val, idx_1048576_lt c i k r⟩ :=
  sum_blocks4 (C := 2) (I := 64) (K := 16) (R := 512) f

end Idealize.ShloMosaic.SumBlocks
-- ==== Proof.LibNonnegFactor.lean ====
/-
  Three small facts about extended reals as float values.

  * A factor that is nonnegative and not +∞ distributes over a finite sum of extended reals, whatever the terms
    (an infinite term included): multiplication by such a factor distributes over a sum of two extended reals, and the
    general case is an induction on the index set.
  * The f32 pattern 0x40000000 is the real number two, so it is such a factor.
  * A comparison "not equal" of an extended real with itself is false, in the ordered and in the unordered spelling:
    a guard `z ≠ z` never fires on the extended reals.
-/
import Idealize.ShloMosaic.PureOps.Ideal.Laws
import Idealize.ShloMosaic.Lib.IdealHost

noncomputable section

open scoped BigOperators

namespace Idealize.ShloMosaic.NonnegFactor

/-- A finite nonnegative factor distributes over a finite sum of extended reals. -/
theorem mul_sum_of_nonneg {ι : Type*} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- The f32 pattern `0x40000000` is the real number two. -/
theorem ofBits_two_f32 : Ideal.ofBits .f32 0x40000000#32 = ((2 : ℝ) : EReal) := by
  simp [Ideal.ofBits, Ideal.ieee, -EReal.coe_mul]; norm_num

theorem ofBits_two_f32_nonneg : (0 : EReal) ≤ Ideal.ofBits .f32 0x40000000#32 := by
  rw [ofBits_two_f32]; exact EReal.coe_nonneg.mpr (by norm_num)

theorem ofBits_two_f32_ne_top : Ideal.ofBits .f32 0x40000000#32 ≠ ⊤ := by
  rw [ofBits_two_f32]; exact EReal.coe_ne_top _

/-- An ordered "not equal" of a value with itself is false, -/
theorem cmp_one_self (z : EReal) : Ideal.cmp .one z z = 0#1 := by
  simp [Ideal.cmp]
/-- and so is the unordered one: no extended real differs from itself. -/
theorem cmp_une_self (z : EReal) : Ideal.cmp .une z z = 0#1 := by
  simp [Ideal.cmp]

end Idealize.ShloMosaic.NonnegFactor

end
-- ==== Proof.CostLaws.lean ====
/-
  The scalar functions of the matching cost on the extended reals, and the laws that join a tiled accumulation
  to a whole sum.

  * `softplus z = max z 0 + log1p (exp (−|z|))`, with `|z| = max z (−z)`, is the stable form of `log (1 + e^z)`;
    a guard `z ≠ z` in front of it never fires, because an extended real equals itself.
  * The logistic function is `1 / (1 + e^(−z))`.
  * The f32 pattern of 2.0 is the real number 2, so multiplying by it distributes over any finite sum of extended
    reals: a nonnegative real factor distributes over sums even when some terms are infinite.
  * A sum over 16384 = 4 · 4096 positions is the sum over the 4 tiles of the sums over a tile's 4096 positions.
-/
import Idealize.ShloMosaic.PureOps.Ideal.Laws
import Idealize.ShloMosaic.Lib.IdealHost
import Idealize.ShloMosaic.Lib.ValueIdx
import proofs.«124107_j2164663517209_1_alg».proof.Proof.LibSumBlocks
import proofs.«124107_j2164663517209_1_alg».proof.Proof.LibNonnegFactor

noncomputable section

open scoped BigOperators

namespace Cert.MatchCost

open Idealize.ShloMosaic

/-- The stable softplus: `max z 0 + log1p (exp (−|z|))`. -/
def softplus (z : EReal) : EReal := max z 0 + Ideal.log1p (Ideal.exp (-(max z (-z))))

/-- The f32 word of 2.0. -/
abbrev two32 : EReal := Ideal.ofBits .f32 0x40000000#32
/-- The f32 word of 16384.0. -/
abbrev g32 : EReal := Ideal.ofBits .f32 0x46800000#32

/-- The f32 pattern of 2.0 is the real number two. -/
theorem two32_eq : two32 = ((2 : ℝ) : EReal) := NonnegFactor.ofBits_two_f32

theorem two32_nonneg : (0 : EReal) ≤ two32 := NonnegFactor.ofBits_two_f32_nonneg

theorem two32_ne_top : two32 ≠ ⊤ := NonnegFactor.ofBits_two_f32_ne_top

/-- A guard `z ≠ z` is false in either spelling. -/
theorem cmp_one_self (z : EReal) : Ideal.cmp .one z z = 0#1 := NonnegFactor.cmp_one_self z
theorem cmp_une_self (z : EReal) : Ideal.cmp .une z z = 0#1 := NonnegFactor.cmp_une_self z

/-- A finite nonnegative factor distributes over a finite sum of extended reals. -/
theorem mul_sum_of_nonneg {ι : Type*} (s : Finset ι) (c : EReal) (h0 : 0 ≤ c) (ht : c ≠ ⊤) (f : ι → EReal) :
    c * ∑ i ∈ s, f i = ∑ i ∈ s, c * f i := NonnegFactor.mul_sum_of_nonneg s c h0 ht f

/-- Position `j` of tile `g` among 16384 = 4 · 4096 positions. -/
def tilePos (g : Fin 4) (j : Fin 4096) : Fin 16384 :=
  ⟨g.val * 4096 + j.val, by have := g.isLt; have := j.isLt; omega⟩

/-- A sum over all 16384 positions is the sum over the four tiles of the sums inside a tile. -/
theorem sum_tiles {M : Type*} [AddCommMonoid M] (f : Fin 16384 → M) :
    ∑ k, f k = ∑ g : Fin 4, ∑ j : Fin 4096, f (tilePos g j) :=
  SumBlocks.sum_blocks (A := 4) (B := 4096) f

end Cert.MatchCost

end
-- ==== Proof.LibGram.lean ====
/-
  Three readings of a matrix at an index, on the extended reals, for any extents.

  * A product of an [n0, K] matrix with an [n1, K] matrix that contracts the LAST axis of both (a Gram-type product
    x · yᵀ) sums, at the result index (r, c), over the positions of a one-axis contraction shape; re-indexed by that
    axis' coordinate it is ∑ k < K, l (r, k) · r (c, k). Stated for any dimension record of those shapes: the record owes
    one contracting axis of extent K (axis 1 on both sides) and free axes that read the result's coordinates.
  * A lane maximum of an [n, k] matrix over its ROWS (axis 0), at column c, is the fold of max from the accumulator's
    value over the n entries of that column; over its COLUMNS (axis 1), at row r, the fold over the row's k entries.
-/
import Idealize.ShloMosaic.PureOps.Ideal.Laws
import Idealize.ShloMosaic.Lib.ValueIdx

noncomputable section

open scoped BigOperators

namespace Idealize.ShloMosaic.Gram

open Idealize.ShloMosaic Idealize.ShloMosaic.ValueIdx

/-- The contraction sum of x · yᵀ at a result index is the sum over the shared last coordinate. -/
theorem sum_contr_last {n0 n1 K : ℕ} {M : Type*} [AddCommMonoid M] [Mul M]
    (D : DotDims (⟨2, ![n0, K]⟩ : Shape) (⟨2, ![n1, K]⟩ : Shape) (⟨2, ![n0, n1]⟩ : Shape))
    (hr : D.contr.rank = 1) (hs : D.contr.size ⟨0, by omega⟩ = K)
    (hlc : D.lhsContracting = [1]) (hrc : D.rhsContracting = [1])
    (hl0 : ∀ j q, (D.lhsIdx j q 0).val = (j 0).val) (hr0 : ∀ j q, (D.rhsIdx j q 0).val = (j 1).val)
    (l : (⟨2, ![n0, K]⟩ : Shape).Idx → M) (r : (⟨2, ![n1, K]⟩ : Shape).Idx → M) (j : (⟨2, ![n0, n1]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 (j 1) k := funext fun a => Fin.ext (by
    match a with
    | ⟨0, _⟩ => exact hr0 _ _
    | ⟨1, _⟩ => exact h2.trans hk)
  exact congrArg₂ (· * ·) (congrArg l el) (congrArg r er)

/-- The reduced index `c` with the row `r` put back is the matrix index `(r, c)`. -/
theorem lift_cols {n k : ℕ} (h : (⟨2, ![n, k]⟩ : Shape).Reduces [0] ⟨1, ![k]⟩) (c : Fin k) (r : Fin n) :
    h.lift (ix1 c) r = ix2 r c :=
  funext fun a => Fin.ext (by match a with | ⟨0, _⟩ => rfl | ⟨1, _⟩ => rfl)

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- A lane maximum over the rows of an `[n, k]` matrix, at column `c`: the fold of max over that column. -/
theorem multiReduction_max_cols_apply {n k : ℕ} (src : FVec Ideal ⟨2, ![n, k]⟩ .f32) (acc : BitVec 32)
    (h : (⟨2, ![n, k]⟩ : Shape).Reduces [0] ⟨1, ![k]⟩) (hφ : FKind.Formats .f32)
    (hacc : acc = FKind.maximumf.neutral .f32 hφ) (c : Fin k) :
    multiReduction .maximumf [0] ⟨1, ![k]⟩ src acc h hφ hacc (ix1 c)
      = (Finset.univ : Finset (Fin n)).fold max (Ideal.ofBits .f32 acc) (fun r => src (ix2 r c)) :=
  (Ideal.multiReduction_maximumf_single src acc h hφ hacc (ix1 c)).trans
    (Finset.fold_congr fun r _ => congrArg src (lift_cols h c r))

/-- A lane maximum over the columns of an `[n, k]` matrix, at row `r`: the fold of max over that row. -/
theorem multiReduction_max_rows_apply {n k : ℕ} (src : FVec Ideal ⟨2, ![n, k]⟩ .f32) (acc : BitVec 32)
    (h : (⟨2, ![n, k]⟩ : Shape).Reduces [1] ⟨1, ![n]⟩) (hφ : FKind.Formats .f32)
    (hacc : acc = FKind.maximumf.neutral .f32 hφ) (r : Fin n) :
    multiReduction .maximumf [1] ⟨1, ![n]⟩ src acc h hφ hacc (ix1 r)
      = (Finset.univ : Finset (Fin k)).fold max (Ideal.ofBits .f32 acc) (fun c => src (ix2 r c)) :=
  (Ideal.multiReduction_maximumf_single src acc h hφ hacc (ix1 r)).trans
    (Finset.fold_congr fun c _ => congrArg src (lift_rows h r c))

end Idealize.ShloMosaic.Gram

end
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.TilePay.lean ====
/-
  What one grid point's vector program computes, entry by entry, on the extended reals.

  A point holds a [100, 4096] tile x of mask logits (rows = queries) and a [50, 4096] tile y of target masks
  (rows = targets). Its pure values, read at an entry:
    * the two cross-entropy tiles are softplus (−x) and softplus x, the probability tile is logistic x;
      a change of float format is the identity;
    * the cost accumulator gains, at (q, t), Σⱼ softplus(−x q j) · y t j + Σⱼ softplus(x q j) · (1 − y t j);
    * the numerator accumulator gains 2 · Σⱼ logistic(x q j) · y t j;
    * the two row-sum columns gain Σⱼ logistic(x q j) and Σⱼ y t j;
    * the last point of a batch element combines them:
        acc/16384 + (1 − (num + 1) / ((sq + st) + 1)).
-/
import proofs.«124107_j2164663517209_1_alg».proof.Proof.Gen.KernelIdeal.Skeleton
import proofs.«124107_j2164663517209_1_alg».proof.Proof.CostLaws
import proofs.«124107_j2164663517209_1_alg».proof.Proof.LibGram
import proofs.«124107_j2164663517209_1_alg».proof.Proof.LibRowSum
import proofs.«124107_j2164663517209_1_alg».proof.Proof.LibColumn
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.MatchCost

/-- The logits tile with its unit batch axis dropped. -/
theorem logits_apply (x0 : Vec Ideal S1x100x4096 .f32) (q : Fin 100) (j : Fin 4096) :
    k0_pay6 (F := Ideal) x0 (ix2 q j) = x0 (ix3 (0 : Fin 1) q j) := by
  unfold k0_pay6
  exact shapeCast_1ab_ab_apply x0 _ q j

/-- The target tile with its unit batch axis dropped. -/
theorem labels_apply (x1 : Vec Ideal S1x50x4096 .f32) (t : Fin 50) (j : Fin 4096) :
    k0_pay7 (F := Ideal) x1 (ix2 t j) = x1 (ix3 (0 : Fin 1) t j) := by
  unfold k0_pay7
  exact shapeCast_1ab_ab_apply x1 _ t j

/-- The same tile after the change of float format. -/
theorem labelsLow_apply (x1 : Vec Ideal S1x50x4096 .f32) (t : Fin 50) (j : Fin 4096) :
    k0_pay12 (F := Ideal) x1 (ix2 t j) = x1 (ix3 (0 : Fin 1) t j) :=
  labels_apply x1 t j

/-- The all-ones tile. -/
theorem ones_apply (t : Fin 50) (j : Fin 4096) : k0_pay13 (F := Ideal) (ix2 t j) = 1 := by
  show Ideal.ofBits .f32 0x3F800000#32 = 1
  exact Ideal.ofBits_one_f32

/-- The probability tile: the logistic function of the logit. -/
theorem prob_apply (x0 : Vec Ideal S1x100x4096 .f32) (q : Fin 100) (j : Fin 4096) :
    k0_pay8 (F := Ideal) x0 (ix2 q j) = Ideal.logistic (x0 (ix3 (0 : Fin 1) q j)) := by
  show Ideal.logistic (k0_pay6 (F := Ideal) x0 (ix2 q j)) = _
  rw [logits_apply]

theorem probLow_apply (x0 : Vec Ideal S1x100x4096 .f32) (q : Fin 100) (j : Fin 4096) :
    k0_pay11 (F := Ideal) x0 (ix2 q j) = Ideal.logistic (x0 (ix3 (0 : Fin 1) q j)) :=
  prob_apply x0 q j

/-- The cross-entropy tile against a target of one: softplus of the negated logit. -/
theorem cePos_apply (x0 : Vec Ideal S1x100x4096 .f32) (q : Fin 100) (j : Fin 4096) :
    k0_pay9 (F := Ideal) x0 (ix2 q j) = softplus (-(x0 (ix3 (0 : Fin 1) q j))) := by
  have hx := logits_apply x0 q j
  show Scalar.select (Ideal.cmp .one ((Ideal.ofBits .f32 0x00000000#32 - k0_pay6 (F := Ideal) x0 (ix2 q j)) - Ideal.ofBits .f32 0x00000000#32)
        ((Ideal.ofBits .f32 0x00000000#32 - k0_pay6 (F := Ideal) x0 (ix2 q j)) - Ideal.ofBits .f32 0x00000000#32))
      ((Ideal.ofBits .f32 0x00000000#32 - k0_pay6 (F := Ideal) x0 (ix2 q j)) + Ideal.ofBits .f32 0x00000000#32)
      (max (Ideal.ofBits .f32 0x00000000#32 - k0_pay6 (F := Ideal) x0 (ix2 q j)) (Ideal.ofBits .f32 0x00000000#32)
        + Ideal.log1p (Ideal.exp (Ideal.ofBits .f32 0x00000000#32
            - max ((Ideal.ofBits .f32 0x00000000#32 - k0_pay6 (F := Ideal) x0 (ix2 q j)) - Ideal.ofBits .f32 0x00000000#32)
                (-((Ideal.ofBits .f32 0x00000000#32 - k0_pay6 (F := Ideal) x0 (ix2 q j)) - Ideal.ofBits .f32 0x00000000#32))))) = _
  rw [cmp_one_self, select_zero, hx, Ideal.ofBits_zero_f32, zero_sub, sub_zero, zero_sub]
  rfl

/-- The cross-entropy tile against a target of zero: softplus of the logit. -/
theorem ceNeg_apply (x0 : Vec Ideal S1x100x4096 .f32) (q : Fin 100) (j : Fin 4096) :
    k0_pay10 (F := Ideal) x0 (ix2 q j) = softplus (x0 (ix3 (0 : Fin 1) q j)) := by
  have hx := logits_apply x0 q j
  show Scalar.select (Ideal.cmp .one (k0_pay6 (F := Ideal) x0 (ix2 q j) - Ideal.ofBits .f32 0x00000000#32)
        (k0_pay6 (F := Ideal) x0 (ix2 q j) - Ideal.ofBits .f32 0x00000000#32))
      (k0_pay6 (F := Ideal) x0 (ix2 q j) + Ideal.ofBits .f32 0x00000000#32)
      (max (k0_pay6 (F := Ideal) x0 (ix2 q j)) (Ideal.ofBits .f32 0x00000000#32)
        + Ideal.log1p (Ideal.exp (Ideal.ofBits .f32 0x00000000#32
            - max (k0_pay6 (F := Ideal) x0 (ix2 q j) - Ideal.ofBits .f32 0x00000000#32)
                (-(k0_pay6 (F := Ideal) x0 (ix2 q j) - Ideal.ofBits .f32 0x00000000#32))))) = _
  rw [cmp_one_self, select_zero, hx, Ideal.ofBits_zero_f32, sub_zero, zero_sub]
  rfl

/-! ## The contractions over a tile's positions -/

local notation "D" => dot_S100x4096_S50x4096_S100x50_1_1_0_0_n_n

private theorem dotL0 (j : S100x50.Idx) (k : (D).contr.Idx) : ((D).lhsIdx j k 0).val = (j 0).val := by
  unfold DotDims.lhsIdx
  rw [dif_neg (show ¬(0 : Fin S100x4096.rank) ∈ (D).lhsBatch by decide),
    dif_pos (show (0 : Fin S100x4096.rank) ∈ (D).lhsNonContracting by decide)]
  rfl

private theorem dotR0 (j : S100x50.Idx) (k : (D).contr.Idx) : ((D).rhsIdx j k 0).val = (j 1).val := by
  unfold DotDims.rhsIdx
  rw [dif_neg (show ¬(0 : Fin S50x4096.rank) ∈ (D).rhsBatch by decide),
    dif_pos (show (0 : Fin S50x4096.rank) ∈ (D).rhsNonContracting by decide)]
  rfl

/-- A [100, 4096] · [50, 4096]ᵀ product into the zero accumulator, at (q, t): the sum over the 4096 shared positions. -/
theorem dot_apply {φ₁ φ₂ : FTy} (l : FVec Ideal S100x4096 φ₁) (r : FVec Ideal S50x4096 φ₂) (q : Fin 100) (t : Fin 50) :
    FloatOps.matmul (D) none l r (constant (F := Ideal) S100x50 .f32 0x00000000#32) (ix2 q t)
      = ∑ j : Fin 4096, l (ix2 q j) * r (ix2 t j) :=
  (Ideal.matmul_constant_zero_apply (D) none l r (ix2 q t)).trans
    (Gram.sum_contr_last (D) rfl rfl rfl rfl dotL0 dotR0 l r (ix2 q t))

/-- The cost accumulator after a point: what it held plus the two contractions of the point's tiles. -/
theorem costAcc_apply (v6 v42 : FVec Ideal S50x4096 .f32) (v38 v39 : FVec Ideal S100x4096 .bf16)
    (v41 : FVec Ideal S50x4096 .bf16) (acc : Vec Ideal S100x50 .f32) (q : Fin 100) (t : Fin 50) :
    k0_pay14 (F := Ideal) v6 v38 v39 v41 v42 acc (ix2 q t)
      = acc (ix2 q t) + ((∑ j : Fin 4096, v38 (ix2 q j) * v41 (ix2 t j))
          + ∑ j : Fin 4096, v39 (ix2 q j) * (v42 (ix2 t j) - v6 (ix2 t j))) := by
  simp only [k0_pay14, shapeCast_self]
  show acc (ix2 q t) + (FloatOps.matmul (D) none v38 v41 (constant (F := Ideal) S100x50 .f32 0x00000000#32) (ix2 q t)
    + FloatOps.matmul (D) none v39 (truncf .bf16 (subf v42 v6) bitsLt_bf16_f32)
        (constant (F := Ideal) S100x50 .f32 0x00000000#32) (ix2 q t)) = _
  rw [dot_apply, dot_apply]
  rfl

/-- The numerator accumulator after a point: what it held plus twice the contraction of probabilities with targets. -/
theorem numAcc_apply (v40 : FVec Ideal S100x4096 .bf16) (v41 : FVec Ideal S50x4096 .bf16)
    (acc : Vec Ideal S100x50 .f32) (q : Fin 100) (t : Fin 50) :
    k0_pay15 (F := Ideal) v40 v41 acc (ix2 q t)
      = acc (ix2 q t) + two32 * ∑ j : Fin 4096, v40 (ix2 q j) * v41 (ix2 t j) := by
  simp only [k0_pay15, shapeCast_self]
  show acc (ix2 q t) + (Ideal.ofBits .f32 0x40000000#32
    * FloatOps.matmul (D) none v40 v41 (constant (F := Ideal) S100x50 .f32 0x00000000#32) (ix2 q t)) = _
  rw [dot_apply]

/-! ## The row sums -/

/-- The probability column after a point: what it held plus the row's sum over the tile. -/
theorem probSum_apply (v37 : FVec Ideal S100x4096 .f32) (acc : Vec Ideal S100x1 .f32) (q : Fin 100) :
    k0_pay16 (F := Ideal) v37 acc (ix2 q (0 : Fin 1)) = acc (ix2 q (0 : Fin 1)) + ∑ j : Fin 4096, v37 (ix2 q j) := by
  simp only [k0_pay16, shapeCast_self]
  show acc (ix2 q (0 : Fin 1)) + shapeCast S100x1 (multiReduction (F := Ideal) .add [1] S100 v37 0x00000000#32
    reduces_S100x4096_S100 (.inl rfl) rfl) shapeCasts_S100_S100x1 (ix2 q (0 : Fin 1)) = _
  rw [shapeCast_a_a1_apply]
  exact congrArg (acc (ix2 q (0 : Fin 1)) + ·) (multiReduction_add_rows_apply v37 reduces_S100x4096_S100 (.inl rfl) rfl q)

/-- The target column after a point: what it held plus the row's sum over the tile. -/
theorem labelSum_apply (v6 : FVec Ideal S50x4096 .f32) (acc : Vec Ideal S50x1 .f32) (t : Fin 50) :
    k0_pay17 (F := Ideal) v6 acc (ix2 t (0 : Fin 1)) = acc (ix2 t (0 : Fin 1)) + ∑ j : Fin 4096, v6 (ix2 t j) := by
  simp only [k0_pay17, shapeCast_self]
  show acc (ix2 t (0 : Fin 1)) + shapeCast S50x1 (multiReduction (F := Ideal) .add [1] S50 v6 0x00000000#32
    reduces_S50x4096_S50 (.inl rfl) rfl) shapeCasts_S50_S50x1 (ix2 t (0 : Fin 1)) = _
  rw [shapeCast_a_a1_apply]
  exact congrArg (acc (ix2 t (0 : Fin 1)) + ·) (multiReduction_add_rows_apply v6 reduces_S50x4096_S50 (.inl rfl) rfl t)

/-! ## The last point's combination -/

/-- What the last point of a batch element stores: the mean cross-entropy cost plus the dice cost. -/
theorem combine_apply (v78 v87 : Vec Ideal S100x50 .f32) (v81 : Vec Ideal S50x1 .f32) (v83 : Vec Ideal S100x1 .f32)
    (q : Fin 100) (t : Fin 50) :
    k0_pay1 (F := Ideal) v78 v81 v83 v87 (ix3 (0 : Fin 1) q t)
      = Ideal.div (v78 (ix2 q t)) g32
        + (1 - Ideal.div (v87 (ix2 q t) + 1) ((v83 (ix2 q (0 : Fin 1)) + v81 (ix2 t (0 : Fin 1))) + 1)) := by
  simp only [k0_pay1]
  rw [shapeCast_ab_1ab_apply]
  show Ideal.div (v78 (ix2 q t)) (Ideal.ofBits .f32 0x46800000#32)
    + (Ideal.ofBits .f32 0x3F800000#32 - Ideal.div (v87 (ix2 q t) + Ideal.ofBits .f32 0x3F800000#32)
        ((broadcastTo S100x50 v83 broadcasts_S100x1_S100x50 (ix2 q t)
          + broadcastTo S100x50 (transpose S1x50 [1, 0] v81 transposes_S50x1_p1_0_S1x50) broadcasts_S1x50_S100x50 (ix2 q t))
          + Ideal.ofBits .f32 0x3F800000#32)) = _
  rw [broadcastTo_a1_ab_apply, broadcastTo_1b_ab_apply, transpose_ix2_apply, Ideal.ofBits_one_f32]

/-! ## One point's updates, from the two input tiles -/

/-- The cost accumulator gains the tile's two cross-entropy contractions. -/
theorem costStep (x0 : Vec Ideal S1x100x4096 .f32) (x1 : Vec Ideal S1x50x4096 .f32) (acc : Vec Ideal S100x50 .f32)
    (q : Fin 100) (t : Fin 50) :
    k0_pay14 (F := Ideal) (k0_pay7 x1) (k0_pay9 x0) (k0_pay10 x0) (k0_pay12 x1) (k0_pay13 (F := Ideal)) acc (ix2 q t)
      = acc (ix2 q t) + ((∑ j : Fin 4096, softplus (-(x0 (ix3 (0 : Fin 1) q j))) * x1 (ix3 (0 : Fin 1) t j))
          + ∑ j : Fin 4096, softplus (x0 (ix3 (0 : Fin 1) q j)) * (1 - x1 (ix3 (0 : Fin 1) t j))) := by
  rw [costAcc_apply]
  simp only [cePos_apply, ceNeg_apply, labelsLow_apply, labels_apply, ones_apply]

/-- The numerator accumulator gains twice the tile's contraction of probabilities with targets. -/
theorem numStep (x0 : Vec Ideal S1x100x4096 .f32) (x1 : Vec Ideal S1x50x4096 .f32) (acc : Vec Ideal S100x50 .f32)
    (q : Fin 100) (t : Fin 50) :
    k0_pay15 (F := Ideal) (k0_pay11 x0) (k0_pay12 x1) acc (ix2 q t)
      = acc (ix2 q t) + two32 * ∑ j : Fin 4096, Ideal.logistic (x0 (ix3 (0 : Fin 1) q j)) * x1 (ix3 (0 : Fin 1) t j) := by
  rw [numAcc_apply]
  simp only [probLow_apply, labelsLow_apply]

/-- The probability column gains the tile's row sums. -/
theorem probStep (x0 : Vec Ideal S1x100x4096 .f32) (acc : Vec Ideal S100x1 .f32) (q : Fin 100) :
    k0_pay16 (F := Ideal) (k0_pay8 x0) acc (ix2 q (0 : Fin 1))
      = acc (ix2 q (0 : Fin 1)) + ∑ j : Fin 4096, Ideal.logistic (x0 (ix3 (0 : Fin 1) q j)) := by
  rw [probSum_apply]
  simp only [prob_apply]

/-- The target column gains the tile's row sums. -/
theorem labStep (x1 : Vec Ideal S1x50x4096 .f32) (acc : Vec Ideal S50x1 .f32) (t : Fin 50) :
    k0_pay17 (F := Ideal) (k0_pay7 x1) acc (ix2 t (0 : Fin 1))
      = acc (ix2 t (0 : Fin 1)) + ∑ j : Fin 4096, x1 (ix3 (0 : Fin 1) t j) := by
  rw [labelSum_apply]
  simp only [labels_apply]

/-- The stored zeros. -/
theorem zero2_apply (i : S100x50.Idx) : k0_pay2 (F := Ideal) i = 0 := Ideal.ofBits_zero_f32
theorem zero3_apply (i : S100x50.Idx) : k0_pay3 (F := Ideal) i = 0 := Ideal.ofBits_zero_f32
theorem zero4_apply (i : S100x1.Idx) : k0_pay4 (F := Ideal) i = 0 := Ideal.ofBits_zero_f32
theorem zero5_apply (i : S50x1.Idx) : k0_pay5 (F := Ideal) i = 0 := Ideal.ofBits_zero_f32

end Cert.KernelIdeal.Tile

end
-- ==== Proof.CostSpec.lean ====
/-
  The mask-and-dice matching cost of one (batch, query, target) triple as a function of the logits X [16, 100, 16384]
  and the target masks L [16, 50, 16384], on the extended reals, and the same cost computed tile by tile.

    ceCost  b q t = Σₖ softplus(−X b q k) · L b t k + Σₖ softplus(X b q k) · (1 − L b t k)
    diceNum b q t = 2 · Σₖ logistic(X b q k) · L b t k
    probSum b q   = Σₖ logistic(X b q k)          labSum b t = Σₖ L b t k
    maskDice b q t = ceCost / 16384 + (1 − (diceNum + 1) / ((probSum + labSum) + 1))

  Splitting the 16384 positions into 4 tiles of 4096, each of the four sums is the sum over the tiles of the tile's
  partial sum. For the numerator the factor 2 multiplies every tile's partial sum; a nonnegative real factor
  distributes over a finite sum of extended reals, so the factor may be taken outside.
-/
import proofs.«124107_j2164663517209_1_alg».proof.Proof.CostLaws

noncomputable section

open scoped BigOperators

namespace Cert.MatchCost

open Idealize.ShloMosaic Idealize.ShloMosaic.ValueIdx

abbrev SX : Shape := ⟨3, ![16, 100, 16384]⟩
abbrev SL : Shape := ⟨3, ![16, 50, 16384]⟩

variable (X : SX.Idx → EReal) (L : SL.Idx → EReal)

/-! ## One tile's partial sums -/

def ceTile (b : Fin 16) (g : Fin 4) (q : Fin 100) (t : Fin 50) : EReal :=
  (∑ j : Fin 4096, softplus (-(X (ix3 b q (tilePos g j)))) * L (ix3 b t (tilePos g j)))
    + ∑ j : Fin 4096, softplus (X (ix3 b q (tilePos g j))) * (1 - L (ix3 b t (tilePos g j)))

def numTile (b : Fin 16) (g : Fin 4) (q : Fin 100) (t : Fin 50) : EReal :=
  two32 * ∑ j : Fin 4096, Ideal.logistic (X (ix3 b q (tilePos g j))) * L (ix3 b t (tilePos g j))

def probTile (b : Fin 16) (g : Fin 4) (q : Fin 100) : EReal :=
  ∑ j : Fin 4096, Ideal.logistic (X (ix3 b q (tilePos g j)))

def labTile (b : Fin 16) (g : Fin 4) (t : Fin 50) : EReal :=
  ∑ j : Fin 4096, L (ix3 b t (tilePos g j))

/-! ## The whole sums -/

def ceCost (b : Fin 16) (q : Fin 100) (t : Fin 50) : EReal :=
  (∑ k : Fin 16384, softplus (-(X (ix3 b q k))) * L (ix3 b t k))
    + ∑ k : Fin 16384, softplus (X (ix3 b q k)) * (1 - L (ix3 b t k))

def diceNum (b : Fin 16) (q : Fin 100) (t : Fin 50) : EReal :=
  two32 * ∑ k : Fin 16384, Ideal.logistic (X (ix3 b q k)) * L (ix3 b t k)

def probSum (b : Fin 16) (q : Fin 100) : EReal := ∑ k : Fin 16384, Ideal.logistic (X (ix3 b q k))

def labSum (b : Fin 16) (t : Fin 50) : EReal := ∑ k : Fin 16384, L (ix3 b t k)

/-- The mean cross-entropy cost plus the dice cost. -/
def maskDice (b : Fin 16) (q : Fin 100) (t : Fin 50) : EReal :=
  Ideal.div (ceCost X L b q t) g32
    + (1 - Ideal.div (diceNum X L b q t + 1) ((probSum X b q + labSum L b t) + 1))

/-! ## The tiles add up -/

theorem sum_ceTile (b : Fin 16) (q : Fin 100) (t : Fin 50) : ∑ g : Fin 4, ceTile X L b g q t = ceCost X L b q t := by
  unfold ceTile ceCost
  rw [Finset.sum_add_distrib,
    sum_tiles (fun k => softplus (-(X (ix3 b q k))) * L (ix3 b t k)),
    sum_tiles (fun k => softplus (X (ix3 b q k)) * (1 - L (ix3 b t k)))]

theorem sum_numTile (b : Fin 16) (q : Fin 100) (t : Fin 50) : ∑ g : Fin 4, numTile X L b g q t = diceNum X L b q t := by
  unfold numTile diceNum
  rw [sum_tiles (fun k => Ideal.logistic (X (ix3 b q k)) * L (ix3 b t k)),
    mul_sum_of_nonneg _ _ two32_nonneg two32_ne_top]

theorem sum_probTile (b : Fin 16) (q : Fin 100) : ∑ g : Fin 4, probTile X b g q = probSum X b q := by
  unfold probTile probSum
  rw [sum_tiles (fun k => Ideal.logistic (X (ix3 b q k)))]

theorem sum_labTile (b : Fin 16) (t : Fin 50) : ∑ g : Fin 4, labTile L b g t = labSum L b t := by
  unfold labTile labSum
  rw [sum_tiles (fun k => L (ix3 b t k))]

end Cert.MatchCost

end
-- ==== Proof.LibBlockRuns.lean ====
/-
  A running sum that restarts every `B` points.

  Let `o` and `T` be sequences in an additive commutative monoid, and suppose that at every point `n` below `N`
  the value `o n` is `0 + T n` when `n` is a multiple of `B`, and `o (n − 1) + T n` otherwise.  Then `o n` is
  the sum of `T` over the run of `n`: the points from the last multiple of `B` at or before `n` up to `n`.  In
  particular, at the last point `B · c + (B − 1)` of run `c` the value is the sum of `T` over the `B` points of
  the run.  The proof is an induction on `n`: a multiple of `B` starts a run of one point, and any other point
  extends the run of its predecessor, which has the same quotient by `B`.
-/
import Mathlib.Algebra.BigOperators.Intervals
import Mathlib.Algebra.BigOperators.Fin
import Mathlib.Order.Interval.Finset.Nat
import Mathlib.Algebra.Order.Interval.Finset.SuccPred

open scoped BigOperators

namespace Idealize.ShloMosaic.BlockRuns

variable {α : Type*} [AddCommMonoid α]

/-- A sequence that restarts at the multiples of `B` and otherwise adds to its predecessor is, at each point,
    the sum of the summands over the point's run. -/
theorem run_sum {B : ℕ} (N : ℕ) (o T : ℕ → α)
    (h0 : ∀ n < N, n % B = 0 → o n = 0 + T n)
    (hs : ∀ n < N, n % B ≠ 0 → o n = o (n - 1) + T n) :
    ∀ n < N, o n = ∑ i ∈ Finset.Icc (B * (n / B)) n, T i := by
  intro n
  induction n with
  | zero =>
    intro hn
    rw [h0 0 hn (Nat.zero_mod B), zero_add, Nat.zero_div, Nat.mul_zero, Finset.Icc_self, Finset.sum_singleton]
  | succ n ih =>
    intro hn
    by_cases hm : (n + 1) % B = 0
    · rw [h0 (n + 1) hn hm, zero_add, Nat.mul_div_cancel' (Nat.dvd_of_mod_eq_zero hm), Finset.Icc_self,
        Finset.sum_singleton]
    · have hdiv : (n + 1) / B = n / B := Nat.succ_div_of_not_dvd (fun hd => hm (Nat.mod_eq_zero_of_dvd hd))
      rw [hs (n + 1) hn hm, Nat.add_sub_cancel, ih (Nat.lt_of_succ_lt hn), hdiv,
        Finset.sum_Icc_succ_top (le_trans (Nat.mul_div_le n B) (Nat.le_succ n))]

/-- At the last point of run `c` the sequence is the sum of the summands over the `B` points of the run. -/
theorem run_end {B : ℕ} (hB : 0 < B) (N : ℕ) (o T : ℕ → α)
    (h0 : ∀ n < N, n % B = 0 → o n = 0 + T n)
    (hs : ∀ n < N, n % B ≠ 0 → o n = o (n - 1) + T n)
    (c : ℕ) (hc : B * c + (B - 1) < N) :
    o (B * c + (B - 1)) = ∑ i : Fin B, T (B * c + i.val) := by
  have hdiv : (B * c + (B - 1)) / B = c := by
    rw [Nat.mul_add_div hB, Nat.div_eq_of_lt (Nat.sub_lt hB Nat.one_pos), Nat.add_zero]
  have hlen : B * c + (B - 1) + 1 - B * c = B := by omega
  rw [run_sum N o T h0 hs _ hc, hdiv, ← Finset.Ico_add_one_right_eq_Icc, Finset.sum_Ico_eq_sum_range, hlen,
    Fin.sum_univ_eq_sum_range (fun i => T (B * c + i))]

end Idealize.ShloMosaic.BlockRuns
-- ==== Proof.Running.lean ====
/-
  The four accumulators point by point, and the output block at the last point of each batch element.

  Grid point n = 4·b + g handles tile g of batch element b. At g = 0 an accumulator is the stored zero plus the
  tile's partial sum; at g > 0 it is what point n − 1 left plus the tile's partial sum. So after point 4·b + 3 each
  accumulator holds the sum of the four tiles' partial sums of batch element b, and the block written there is the
  combination of those four sums.
-/
import proofs.«124107_j2164663517209_1_alg».proof.Proof.Pieces
import proofs.«124107_j2164663517209_1_alg».proof.Proof.TilePay
import proofs.«124107_j2164663517209_1_alg».proof.Proof.CostSpec
import proofs.«124107_j2164663517209_1_alg».proof.Proof.LibBlockRuns

noncomputable section

open scoped BigOperators
open Idealize.ShloMosaic Idealize.ShloMosaic.TcCoe Idealize.SL.Sem
open Idealize.ShloMosaic.Pipeline (Dat)

namespace Cert.KernelIdeal.Running

open Cert.KernelIdeal Cert.KernelIdeal.Gen Cert.KernelIdeal.Tile Cert.KernelIdeal.Pieces Cert.MatchCost
open Idealize.ShloMosaic.ValueIdx

variable (m : (ℓ : Loc nD τ sig) → Buf (Elt Ideal) ℓ) (c : Dev nD)

/-- The logits and the target masks as the region finds them. -/
abbrev X : SX.Idx → EReal := V m c main_arg0
abbrev L : SL.Idx → EReal := V m c main_arg2

theorem N64 : cfg0.N = 64 := N_0

/-- The batch element and the tile of grid point n. -/
def bat (n : ℕ) (h : n < cfg0.N) : Fin 16 := ⟨n / 4, by have := N64; omega⟩
def til (n : ℕ) : Fin 4 := ⟨n % 4, Nat.mod_lt _ (by decide)⟩

/-! ## The input blocks -/

/-- Point n = 4·b + g fetches block (b, 0, g) of either input. -/
theorem idx0 : ∀ t : Fin cfg0.N, win0_0.index t 0 = t.val / 4 ∧ win0_0.index t 1 = 0 ∧ win0_0.index t 2 = t.val % 4 :=
  (by decide +kernel : ∀ t : Fin grid0.N, win0_0.index t 0 = t.val / 4 ∧ win0_0.index t 1 = 0 ∧ win0_0.index t 2 = t.val % 4)
theorem idx1 : ∀ t : Fin cfg0.N, win0_1.index t 0 = t.val / 4 ∧ win0_1.index t 1 = 0 ∧ win0_1.index t 2 = t.val % 4 :=
  (by decide +kernel : ∀ t : Fin grid0.N, win0_1.index t 0 = t.val / 4 ∧ win0_1.index t 1 = 0 ∧ win0_1.index t 2 = t.val % 4)

/-- The logits tile of a point, entry (q, j): the logit of (b, q, 4096·g + j). -/
theorem logitsBlock (t : Fin cfg0.N) (q : Fin 100) (j : Fin 4096) :
    iblk m c 0 t (ix3 (0 : Fin 1) q j) = X m c (ix3 (bat t.val t.isLt) q (tilePos (til t.val) j)) := by
  obtain ⟨h0, h1, h2⟩ := idx0 t
  unfold iblk
  rw [View.read_apply]
  show V m c main_arg0 _ = V m c main_arg0 _
  congr 1
  funext a
  apply Fin.ext
  match a with
  | ⟨0, _⟩ => show win0_0.index t 0 * 1 + 1 * 0 = t.val / 4; rw [h0]; omega
  | ⟨1, _⟩ => show win0_0.index t 1 * 100 + 1 * q.val = q.val; rw [h1]; omega
  | ⟨2, _⟩ => show win0_0.index t 2 * 4096 + 1 * j.val = t.val % 4 * 4096 + j.val; rw [h2]; omega

/-- The target tile of a point, entry (t', j): the mask of (b, t', 4096·g + j). -/
theorem labelsBlock (t : Fin cfg0.N) (u : Fin 50) (j : Fin 4096) :
    iblk m c 1 t (ix3 (0 : Fin 1) u j) = L m c (ix3 (bat t.val t.isLt) u (tilePos (til t.val) j)) := by
  obtain ⟨h0, h1, h2⟩ := idx1 t
  unfold iblk
  rw [View.read_apply]
  show V m c main_arg2 _ = V m c main_arg2 _
  congr 1
  funext a
  apply Fin.ext
  match a with
  | ⟨0, _⟩ => show win0_1.index t 0 * 1 + 1 * 0 = t.val / 4; rw [h0]; omega
  | ⟨1, _⟩ => show win0_1.index t 1 * 50 + 1 * u.val = u.val; rw [h1]; omega
  | ⟨2, _⟩ => show win0_1.index t 2 * 4096 + 1 * j.val = t.val % 4 * 4096 + j.val; rw [h2]; omega

/-! ## Each accumulator at a point, from the accumulator at the point before -/

theorem acc0_first (t : Fin cfg0.N) (h0 : t.val % 4 = 0) :
    (outsAt0 m c t.val t.isLt).2.1 = k0_pay14 (k0_pay7 (iblk m c 1 t)) (k0_pay9 (iblk m c 0 t)) (k0_pay10 (iblk m c 0 t)) (k0_pay12 (iblk m c 1 t)) (k0_pay13 (F := Ideal)) (k0_pay2 (F := Ideal)) :=
  have h1 : ¬t.val % 4 = 3 := by omega
  (congrArg (fun p => p.2.1) (outsAt0_A m c t h0 h1)).trans
    (first_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) ((hcond0_0 t).mpr h0) (fun h => h1 ((hcond0_1 t).mp h)))

theorem acc0_next (t : Fin cfg0.N) (h0 : ¬t.val % 4 = 0) :
    (outsAt0 m c t.val t.isLt).2.1 = k0_pay14 (k0_pay7 (iblk m c 1 t)) (k0_pay9 (iblk m c 0 t)) (k0_pay10 (iblk m c 0 t)) (k0_pay12 (iblk m c 1 t)) (k0_pay13 (F := Ideal)) (outsAt0 m c (t.val - 1) (Nat.lt_of_le_of_lt (Nat.sub_le _ _) t.isLt)).2.1 := by
  by_cases h1 : t.val % 4 = 3
  · exact (congrArg (fun p => p.2.1) (outsAt0_C m c t h0 h1)).trans
      (last_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) (fun h => h0 ((hcond0_0 t).mp h)) ((hcond0_1 t).mpr h1)
        (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)
  · exact (congrArg (fun p => p.2.1) (outsAt0_B m c t h0 h1)).trans
      (middle_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) (fun h => h0 ((hcond0_0 t).mp h)) (fun h => h1 ((hcond0_1 t).mp h))
        (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)

theorem acc1_first (t : Fin cfg0.N) (h0 : t.val % 4 = 0) :
    (outsAt0 m c t.val t.isLt).2.2.1 = k0_pay15 (k0_pay11 (iblk m c 0 t)) (k0_pay12 (iblk m c 1 t)) (k0_pay3 (F := Ideal)) :=
  have h1 : ¬t.val % 4 = 3 := by omega
  (congrArg (fun p => p.2.2.1) (outsAt0_A m c t h0 h1)).trans
    (first_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) ((hcond0_0 t).mpr h0) (fun h => h1 ((hcond0_1 t).mp h)))

theorem acc1_next (t : Fin cfg0.N) (h0 : ¬t.val % 4 = 0) :
    (outsAt0 m c t.val t.isLt).2.2.1 = k0_pay15 (k0_pay11 (iblk m c 0 t)) (k0_pay12 (iblk m c 1 t)) (outsAt0 m c (t.val - 1) (Nat.lt_of_le_of_lt (Nat.sub_le _ _) t.isLt)).2.2.1 := by
  by_cases h1 : t.val % 4 = 3
  · exact (congrArg (fun p => p.2.2.1) (outsAt0_C m c t h0 h1)).trans
      (last_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) (fun h => h0 ((hcond0_0 t).mp h)) ((hcond0_1 t).mpr h1)
        (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)
  · exact (congrArg (fun p => p.2.2.1) (outsAt0_B m c t h0 h1)).trans
      (middle_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) (fun h => h0 ((hcond0_0 t).mp h)) (fun h => h1 ((hcond0_1 t).mp h))
        (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)

theorem acc2_first (t : Fin cfg0.N) (h0 : t.val % 4 = 0) :
    (outsAt0 m c t.val t.isLt).2.2.2.1 = k0_pay16 (k0_pay8 (iblk m c 0 t)) (k0_pay4 (F := Ideal)) :=
  have h1 : ¬t.val % 4 = 3 := by omega
  (congrArg (fun p => p.2.2.2.1) (outsAt0_A m c t h0 h1)).trans
    (first_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) ((hcond0_0 t).mpr h0) (fun h => h1 ((hcond0_1 t).mp h)))

theorem acc2_next (t : Fin cfg0.N) (h0 : ¬t.val % 4 = 0) :
    (outsAt0 m c t.val t.isLt).2.2.2.1 = k0_pay16 (k0_pay8 (iblk m c 0 t)) (outsAt0 m c (t.val - 1) (Nat.lt_of_le_of_lt (Nat.sub_le _ _) t.isLt)).2.2.2.1 := by
  by_cases h1 : t.val % 4 = 3
  · exact (congrArg (fun p => p.2.2.2.1) (outsAt0_C m c t h0 h1)).trans
      (last_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) (fun h => h0 ((hcond0_0 t).mp h)) ((hcond0_1 t).mpr h1)
        (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)
  · exact (congrArg (fun p => p.2.2.2.1) (outsAt0_B m c t h0 h1)).trans
      (middle_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) (fun h => h0 ((hcond0_0 t).mp h)) (fun h => h1 ((hcond0_1 t).mp h))
        (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)

theorem acc3_first (t : Fin cfg0.N) (h0 : t.val % 4 = 0) :
    (outsAt0 m c t.val t.isLt).2.2.2.2 = k0_pay17 (k0_pay7 (iblk m c 1 t)) (k0_pay5 (F := Ideal)) :=
  have h1 : ¬t.val % 4 = 3 := by omega
  (congrArg (fun p => p.2.2.2.2) (outsAt0_A m c t h0 h1)).trans
    (first_3 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) ((hcond0_0 t).mpr h0) (fun h => h1 ((hcond0_1 t).mp h)))

theorem acc3_next (t : Fin cfg0.N) (h0 : ¬t.val % 4 = 0) :
    (outsAt0 m c t.val t.isLt).2.2.2.2 = k0_pay17 (k0_pay7 (iblk m c 1 t)) (outsAt0 m c (t.val - 1) (Nat.lt_of_le_of_lt (Nat.sub_le _ _) t.isLt)).2.2.2.2 := by
  by_cases h1 : t.val % 4 = 3
  · exact (congrArg (fun p => p.2.2.2.2) (outsAt0_C m c t h0 h1)).trans
      (last_3 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) (fun h => h0 ((hcond0_0 t).mp h)) ((hcond0_1 t).mpr h1)
        (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)
  · exact (congrArg (fun p => p.2.2.2.2) (outsAt0_B m c t h0 h1)).trans
      (middle_3 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) (fun h => h0 ((hcond0_0 t).mp h)) (fun h => h1 ((hcond0_1 t).mp h))
        (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)

/-! ## The closed forms: each accumulator after the last point of a batch element -/

theorem bat_tile (b : Fin 16) (g : Fin 4) (h : 4 * b.val + g.val < cfg0.N) : bat (4 * b.val + g.val) h = b :=
  Fin.ext (by show (4 * b.val + g.val) / 4 = b.val; have := g.isLt; omega)
theorem til_tile (b : Fin 16) (g : Fin 4) : til (4 * b.val + g.val) = g :=
  Fin.ext (by show (4 * b.val + g.val) % 4 = g.val; have := g.isLt; omega)

/-- One point adds its tile's partial sum. -/
theorem cost_step (t : Fin cfg0.N) (acc : Vec Ideal S100x50 .f32) (q : Fin 100) (u : Fin 50) :
    k0_pay14 (k0_pay7 (iblk m c 1 t)) (k0_pay9 (iblk m c 0 t)) (k0_pay10 (iblk m c 0 t)) (k0_pay12 (iblk m c 1 t)) (k0_pay13 (F := Ideal)) acc (ix2 q u)
      = acc (ix2 q u) + ceTile (X m c) (L m c) (bat t.val t.isLt) (til t.val) q u := by
  rw [costStep (iblk m c 0 t) (iblk m c 1 t) acc q u]
  unfold ceTile
  simp only [logitsBlock m c t, labelsBlock m c t]

/-- After the last point of batch element b: the sum of its four tiles' partial sums. -/
theorem cost_end (b : Fin 16) (q : Fin 100) (u : Fin 50) (hb : 4 * b.val + 3 < cfg0.N) :
    (outsAt0 m c (4 * b.val + 3) hb).2.1 (ix2 q u) = ∑ g : Fin 4, ceTile (X m c) (L m c) b g q u := by
  have hN := N64
  have key := BlockRuns.run_end (B := 4) (by decide) cfg0.N
    (fun n => if h : n < cfg0.N then (outsAt0 m c n h).2.1 (ix2 q u) else 0)
    (fun n => if h : n < cfg0.N then ceTile (X m c) (L m c) (bat n h) (til n) q u else 0)
    (fun n hn hm => by
      simp only [dif_pos hn]
      exact ((congrFun (acc0_first m c ⟨n, hn⟩ hm) (ix2 q u)).trans (cost_step m c ⟨n, hn⟩ _ q u)).trans
        (by rw [zero2_apply]))
    (fun n hn hm => by
      have hn' : n - 1 < cfg0.N := by omega
      simp only [dif_pos hn, dif_pos hn']
      exact (congrFun (acc0_next m c ⟨n, hn⟩ hm) (ix2 q u)).trans (cost_step m c ⟨n, hn⟩ _ q u))
    b.val (by have := b.isLt; omega)
  have e : 4 * b.val + (4 - 1) = 4 * b.val + 3 := rfl
  simp only [e, dif_pos hb] at key
  rw [key]
  refine Finset.sum_congr rfl fun g _ => ?_
  have hg : 4 * b.val + g.val < cfg0.N := by have := g.isLt; have := b.isLt; omega
  rw [dif_pos hg, bat_tile b g hg, til_tile b g]

/-- One point adds its tile's partial sum. -/
theorem num_step (t : Fin cfg0.N) (acc : Vec Ideal S100x50 .f32) (q : Fin 100) (u : Fin 50) :
    k0_pay15 (k0_pay11 (iblk m c 0 t)) (k0_pay12 (iblk m c 1 t)) acc (ix2 q u)
      = acc (ix2 q u) + numTile (X m c) (L m c) (bat t.val t.isLt) (til t.val) q u := by
  rw [numStep (iblk m c 0 t) (iblk m c 1 t) acc q u]
  unfold numTile
  simp only [logitsBlock m c t, labelsBlock m c t]

/-- After the last point of batch element b: the sum of its four tiles' partial sums. -/
theorem num_end (b : Fin 16) (q : Fin 100) (u : Fin 50) (hb : 4 * b.val + 3 < cfg0.N) :
    (outsAt0 m c (4 * b.val + 3) hb).2.2.1 (ix2 q u) = ∑ g : Fin 4, numTile (X m c) (L m c) b g q u := by
  have hN := N64
  have key := BlockRuns.run_end (B := 4) (by decide) cfg0.N
    (fun n => if h : n < cfg0.N then (outsAt0 m c n h).2.2.1 (ix2 q u) else 0)
    (fun n => if h : n < cfg0.N then numTile (X m c) (L m c) (bat n h) (til n) q u else 0)
    (fun n hn hm => by
      simp only [dif_pos hn]
      exact ((congrFun (acc1_first m c ⟨n, hn⟩ hm) (ix2 q u)).trans (num_step m c ⟨n, hn⟩ _ q u)).trans
        (by rw [zero3_apply]))
    (fun n hn hm => by
      have hn' : n - 1 < cfg0.N := by omega
      simp only [dif_pos hn, dif_pos hn']
      exact (congrFun (acc1_next m c ⟨n, hn⟩ hm) (ix2 q u)).trans (num_step m c ⟨n, hn⟩ _ q u))
    b.val (by have := b.isLt; omega)
  have e : 4 * b.val + (4 - 1) = 4 * b.val + 3 := rfl
  simp only [e, dif_pos hb] at key
  rw [key]
  refine Finset.sum_congr rfl fun g _ => ?_
  have hg : 4 * b.val + g.val < cfg0.N := by have := g.isLt; have := b.isLt; omega
  rw [dif_pos hg, bat_tile b g hg, til_tile b g]

/-- One point adds its tile's partial sum. -/
theorem prob_step (t : Fin cfg0.N) (acc : Vec Ideal S100x1 .f32) (q : Fin 100) :
    k0_pay16 (k0_pay8 (iblk m c 0 t)) acc (ix2 q (0 : Fin 1))
      = acc (ix2 q (0 : Fin 1)) + probTile (X m c) (bat t.val t.isLt) (til t.val) q := by
  rw [probStep (iblk m c 0 t) acc q]
  unfold probTile
  simp only [logitsBlock m c t, labelsBlock m c t]

/-- After the last point of batch element b: the sum of its four tiles' partial sums. -/
theorem prob_end (b : Fin 16) (q : Fin 100) (hb : 4 * b.val + 3 < cfg0.N) :
    (outsAt0 m c (4 * b.val + 3) hb).2.2.2.1 (ix2 q (0 : Fin 1)) = ∑ g : Fin 4, probTile (X m c) b g q := by
  have hN := N64
  have key := BlockRuns.run_end (B := 4) (by decide) cfg0.N
    (fun n => if h : n < cfg0.N then (outsAt0 m c n h).2.2.2.1 (ix2 q (0 : Fin 1)) else 0)
    (fun n => if h : n < cfg0.N then probTile (X m c) (bat n h) (til n) q else 0)
    (fun n hn hm => by
      simp only [dif_pos hn]
      exact ((congrFun (acc2_first m c ⟨n, hn⟩ hm) (ix2 q (0 : Fin 1))).trans (prob_step m c ⟨n, hn⟩ _ q)).trans
        (by rw [zero4_apply]))
    (fun n hn hm => by
      have hn' : n - 1 < cfg0.N := by omega
      simp only [dif_pos hn, dif_pos hn']
      exact (congrFun (acc2_next m c ⟨n, hn⟩ hm) (ix2 q (0 : Fin 1))).trans (prob_step m c ⟨n, hn⟩ _ q))
    b.val (by have := b.isLt; omega)
  have e : 4 * b.val + (4 - 1) = 4 * b.val + 3 := rfl
  simp only [e, dif_pos hb] at key
  rw [key]
  refine Finset.sum_congr rfl fun g _ => ?_
  have hg : 4 * b.val + g.val < cfg0.N := by have := g.isLt; have := b.isLt; omega
  rw [dif_pos hg, bat_tile b g hg, til_tile b g]

/-- One point adds its tile's partial sum. -/
theorem lab_step (t : Fin cfg0.N) (acc : Vec Ideal S50x1 .f32) (u : Fin 50) :
    k0_pay17 (k0_pay7 (iblk m c 1 t)) acc (ix2 u (0 : Fin 1))
      = acc (ix2 u (0 : Fin 1)) + labTile (L m c) (bat t.val t.isLt) (til t.val) u := by
  rw [labStep (iblk m c 1 t) acc u]
  unfold labTile
  simp only [logitsBlock m c t, labelsBlock m c t]

/-- After the last point of batch element b: the sum of its four tiles' partial sums. -/
theorem lab_end (b : Fin 16) (u : Fin 50) (hb : 4 * b.val + 3 < cfg0.N) :
    (outsAt0 m c (4 * b.val + 3) hb).2.2.2.2 (ix2 u (0 : Fin 1)) = ∑ g : Fin 4, labTile (L m c) b g u := by
  have hN := N64
  have key := BlockRuns.run_end (B := 4) (by decide) cfg0.N
    (fun n => if h : n < cfg0.N then (outsAt0 m c n h).2.2.2.2 (ix2 u (0 : Fin 1)) else 0)
    (fun n => if h : n < cfg0.N then labTile (L m c) (bat n h) (til n) u else 0)
    (fun n hn hm => by
      simp only [dif_pos hn]
      exact ((congrFun (acc3_first m c ⟨n, hn⟩ hm) (ix2 u (0 : Fin 1))).trans (lab_step m c ⟨n, hn⟩ _ u)).trans
        (by rw [zero5_apply]))
    (fun n hn hm => by
      have hn' : n - 1 < cfg0.N := by omega
      simp only [dif_pos hn, dif_pos hn']
      exact (congrFun (acc3_next m c ⟨n, hn⟩ hm) (ix2 u (0 : Fin 1))).trans (lab_step m c ⟨n, hn⟩ _ u))
    b.val (by have := b.isLt; omega)
  have e : 4 * b.val + (4 - 1) = 4 * b.val + 3 := rfl
  simp only [e, dif_pos hb] at key
  rw [key]
  refine Finset.sum_congr rfl fun g _ => ?_
  have hg : 4 * b.val + g.val < cfg0.N := by have := g.isLt; have := b.isLt; omega
  rw [dif_pos hg, bat_tile b g hg, til_tile b g]

/-- The output block at a last point: the combination of the four accumulators as that point leaves them. -/
theorem out_last (t : Fin cfg0.N) (h1 : t.val % 4 = 3) :
    (outsAt0 m c t.val t.isLt).1
      = k0_pay1 (outsAt0 m c t.val t.isLt).2.1 (outsAt0 m c t.val t.isLt).2.2.2.2
          (outsAt0 m c t.val t.isLt).2.2.2.1 (outsAt0 m c t.val t.isLt).2.2.1 := by
  have h0 : ¬t.val % 4 = 0 := by omega
  rw [acc0_next m c t h0, acc1_next m c t h0, acc2_next m c t h0, acc3_next m c t h0]
  exact (congrArg (fun p => p.1) (outsAt0_C m c t h0 h1)).trans
    (last_out c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) (fun h => h0 ((hcond0_0 t).mp h)) ((hcond0_1 t).mpr h1)
      (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)

end Cert.KernelIdeal.Running

end
-- ==== Proof.KernelValue.lean ====
/-
  The array the region leaves, and what the program returns.

  The output window's block at grid point 4·b + 3 is row-block b of the [16, 100, 50] result; it is written back only
  there, and by then holds the mask-and-dice cost of batch element b. The sixteen blocks tile the array, so after the
  region the array holds that cost at every (b, q, t). The operations after the region add to it the classification
  cost, a function of the class logits and class labels only.
-/
import proofs.«124107_j2164663517209_1_alg».proof.Proof.Running
import Idealize.ShloMosaic.Lib.StableHlo.Run

noncomputable section

open scoped BigOperators
open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Tile Cert.KernelIdeal.Running Cert.MatchCost
open Idealize.ShloMosaic.ValueIdx

variable (m : (ℓ : Loc nD τ sig) → Buf (Elt Ideal) ℓ) (ρ : Dev nD → PrngReg) (c : Dev nD)

/-! ## Each accumulator at any last point -/

theorem last_point (n : ℕ) (h : n < cfg0.N) (h3 : n % 4 = 3) : ∃ b : Fin 16, n = 4 * b.val + 3 :=
  ⟨⟨n / 4, by have := N64; omega⟩, by show n = 4 * (n / 4) + 3; omega⟩

theorem cost_at (t : Fin cfg0.N) (h3 : t.val % 4 = 3) (q : Fin 100) (u : Fin 50) :
    (outsAt0 m c t.val t.isLt).2.1 (ix2 q u) = ceCost (X m c) (L m c) (bat t.val t.isLt) q u := by
  obtain ⟨n, hn⟩ := t
  obtain ⟨b, rfl⟩ := last_point n hn h3
  have eb : bat (4 * b.val + 3) hn = b := bat_tile b 3 hn
  show (outsAt0 m c (4 * b.val + 3) hn).2.1 (ix2 q u) = ceCost (X m c) (L m c) (bat (4 * b.val + 3) hn) q u
  rw [eb, cost_end m c b q u hn, sum_ceTile]

theorem num_at (t : Fin cfg0.N) (h3 : t.val % 4 = 3) (q : Fin 100) (u : Fin 50) :
    (outsAt0 m c t.val t.isLt).2.2.1 (ix2 q u) = diceNum (X m c) (L m c) (bat t.val t.isLt) q u := by
  obtain ⟨n, hn⟩ := t
  obtain ⟨b, rfl⟩ := last_point n hn h3
  have eb : bat (4 * b.val + 3) hn = b := bat_tile b 3 hn
  show (outsAt0 m c (4 * b.val + 3) hn).2.2.1 (ix2 q u) = diceNum (X m c) (L m c) (bat (4 * b.val + 3) hn) q u
  rw [eb, num_end m c b q u hn, sum_numTile]

theorem prob_at (t : Fin cfg0.N) (h3 : t.val % 4 = 3) (q : Fin 100) :
    (outsAt0 m c t.val t.isLt).2.2.2.1 (ix2 q (0 : Fin 1)) = probSum (X m c) (bat t.val t.isLt) q := by
  obtain ⟨n, hn⟩ := t
  obtain ⟨b, rfl⟩ := last_point n hn h3
  have eb : bat (4 * b.val + 3) hn = b := bat_tile b 3 hn
  show (outsAt0 m c (4 * b.val + 3) hn).2.2.2.1 (ix2 q (0 : Fin 1)) = probSum (X m c) (bat (4 * b.val + 3) hn) q
  rw [eb, prob_end m c b q hn, sum_probTile]

theorem lab_at (t : Fin cfg0.N) (h3 : t.val % 4 = 3) (u : Fin 50) :
    (outsAt0 m c t.val t.isLt).2.2.2.2 (ix2 u (0 : Fin 1)) = labSum (L m c) (bat t.val t.isLt) u := by
  obtain ⟨n, hn⟩ := t
  obtain ⟨b, rfl⟩ := last_point n hn h3
  have eb : bat (4 * b.val + 3) hn = b := bat_tile b 3 hn
  show (outsAt0 m c (4 * b.val + 3) hn).2.2.2.2 (ix2 u (0 : Fin 1)) = labSum (L m c) (bat (4 * b.val + 3) hn) u
  rw [eb, lab_end m c b u hn, sum_labTile]

/-- The block a last point writes back, entry (q, u): the mask-and-dice cost of its batch element. -/
theorem out_at (t : Fin cfg0.N) (h3 : t.val % 4 = 3) (q : Fin 100) (u : Fin 50) :
    (outsAt0 m c t.val t.isLt).1 (ix3 (0 : Fin 1) q u) = maskDice (X m c) (L m c) (bat t.val t.isLt) q u := by
  rw [out_last m c t h3, combine_apply, cost_at m c t h3, num_at m c t h3, prob_at m c t h3, lab_at m c t h3]
  rfl

/-! ## The array after the region -/

/-- The coordinates of an index of the result array. -/
def co0 (i : S16x100x50.Idx) : Fin 16 := ⟨(i 0).val, (i 0).isLt⟩
def co1 (i : S16x100x50.Idx) : Fin 100 := ⟨(i 1).val, (i 1).isLt⟩
def co2 (i : S16x100x50.Idx) : Fin 50 := ⟨(i 2).val, (i 2).isLt⟩

/-- The mask-and-dice cost as an array. -/
def costArray : S16x100x50.Idx → EReal := fun i => maskDice (X m c) (L m c) (co0 i) (co1 i) (co2 i)

/-- The output block of a point is block (b, 0, 0). -/
theorem idx2 : ∀ t : Fin cfg0.N, win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0)

/-- What a last point writes back is its block of the cost array. -/
theorem flushed_eq (t : Fin cfg0.N) (hf : (cfg0.win 2).flush t = true) :
    (dats m 0 c).flushed 2 t = ((cfg0.win 2).blk t).view.read (Elt Ideal) (costArray m c) := by
  have h3 : t.val % 4 = 3 := (flush0_2 t).mp hf
  obtain ⟨e0, e1, e2⟩ := idx2 t
  show (cfg0.win 2).cut (grid0.coords t) ((dats m 0 c).after 2 t) = _
  rw [after0_2]
  funext y
  obtain ⟨z, q, u, rfl⟩ : ∃ (z : Fin 1) (q : Fin 100) (u : Fin 50), y = ix3 z q u := ⟨y 0, y 1, y 2, eq_ix3 y⟩
  obtain rfl : z = 0 := Subsingleton.elim _ _
  rw [View.read_apply]
  show (outsAt0 m c t.val t.isLt).1 (ix3 (0 : Fin 1) q u)
    = maskDice (X m c) (L m c) (co0 (((cfg0.win 2).blk t).view.emb (ix3 (0 : Fin 1) q u)))
        (co1 (((cfg0.win 2).blk t).view.emb (ix3 (0 : Fin 1) q u))) (co2 (((cfg0.win 2).blk t).view.emb (ix3 (0 : Fin 1) q u)))
  have c0 : co0 (((cfg0.win 2).blk t).view.emb (ix3 (0 : Fin 1) q u)) = bat t.val t.isLt :=
    Fin.ext (by show win0_2.index t 0 * 1 + 1 * 0 = t.val / 4; rw [e0]; omega)
  have c1 : co1 (((cfg0.win 2).blk t).view.emb (ix3 (0 : Fin 1) q u)) = q :=
    Fin.ext (by show win0_2.index t 1 * 100 + 1 * q.val = q.val; rw [e1]; omega)
  have c2 : co2 (((cfg0.win 2).blk t).view.emb (ix3 (0 : Fin 1) q u)) = u :=
    Fin.ext (by show win0_2.index t 2 * 50 + 1 * u.val = u.val; rw [e2]; omega)
  rw [c0, c1, c2]
  exact out_at m c t h3 q u

/-- An index of the array is in a point's block iff each coordinate is in the block's range. -/
theorem mem_blk (t : Fin cfg0.N) (i : S16x100x50.Idx) :
    i ∈ ((cfg0.win 2).blk t).view.set ↔ ∀ a : Fin 3, win0_2.index t a * S1x100x50.size a ≤ (i a).val
      ∧ (i a).val < win0_2.index t a * S1x100x50.size a + S1x100x50.size a := by
  show i ∈ ((View.whole main_v0).slice (win0_2.rect t)).set ↔ _
  rw [View.set_slice_whole, Rect.mem_set_unit]
  exact Iff.rfl

/-- Every index lies in the block of the last point of its batch element. -/
theorem cover (i : S16x100x50.Idx) :
    ∃ t : Fin cfg0.N, (cfg0.win 2).flush t = true ∧ i ∈ ((cfg0.win 2).blk t).view.set := by
  have hN := N64
  have hi0 : (i 0).val < 16 := (i 0).isLt
  have hi1 : (i 1).val < 100 := (i 1).isLt
  have hi2 : (i 2).val < 50 := (i 2).isLt
  let t : Fin cfg0.N := ⟨4 * (i 0).val + 3, by omega⟩
  obtain ⟨e0, e1, e2⟩ := idx2 t
  have ht : t.val = 4 * (i 0).val + 3 := rfl
  refine ⟨t, (flush0_2 t).mpr (by omega), ?_⟩
  rw [mem_blk]
  intro a
  match a with
  | ⟨0, _⟩ => show win0_2.index t 0 * 1 ≤ (i 0).val ∧ (i 0).val < win0_2.index t 0 * 1 + 1; omega
  | ⟨1, _⟩ => show win0_2.index t 1 * 100 ≤ (i 1).val ∧ (i 1).val < win0_2.index t 1 * 100 + 100; omega
  | ⟨2, _⟩ => show win0_2.index t 2 * 50 ≤ (i 2).val ∧ (i 2).val < win0_2.index t 2 * 50 + 50; omega

/-- After the region the result array holds the mask-and-dice cost. -/
theorem final : (dats m 0 c).arrAt 2 cfg0.N = costArray m c :=
  (dats m 0 c).arrAt_eq_of_cover 2 (costArray m c) (fun t hf => flushed_eq m c t hf) (cover)

/-! ## The operations after the region -/

/-- The classification cost: minus the softmax probability of each target's class, a function of the class logits
    [16, 100, 21] and the class labels [16, 50] alone. -/
def classCost (x1 : (⟨S16x100x21, .f32⟩ : BufTy).Contents (Elt Ideal)) (x3 : (⟨S16x50, .i32⟩ : BufTy).Contents (Elt Ideal)) :
    (⟨S16x100x50, .f32⟩ : BufTy).Contents (Elt Ideal) :=
  Host.negf
    (Host.dotGeneral dot_S16x100x21_S16x50x21_S16x100x50_2_2_1_1_0_0 none
      (Host.divf
        (Host.exp
          (subf x1
            (broadcastInDim S16x100x21 ![0, 1, 2] bcast_S16x100x1_S16x100x21_0_1_2
              (broadcastInDim S16x100x1 ![0, 1] bcast_S16x100_S16x100x1_0_1
                (maximumf (broadcastInDim S16x100 ![] bcast_S_S16x100 (constant (F := Ideal) S_ .f32 0xFF800000#32))
                  (Host.reduce FloatOps.maximumf x1 (constant (F := Ideal) S_ .f32 0xFF800000#32)
                    reducesTo_S16x100x21_S16x100_d2 h_S_))))))
        (broadcastInDim S16x100x21 ![0, 1, 2] bcast_S16x100x1_S16x100x21_0_1_2
          (broadcastInDim S16x100x1 ![0, 1] bcast_S16x100_S16x100x1_0_1
            (Host.reduceAdd
              (Host.exp
                (subf x1
                  (broadcastInDim S16x100x21 ![0, 1, 2] bcast_S16x100x1_S16x100x21_0_1_2
                    (broadcastInDim S16x100x1 ![0, 1] bcast_S16x100_S16x100x1_0_1
                      (maximumf (broadcastInDim S16x100 ![] bcast_S_S16x100 (constant (F := Ideal) S_ .f32 0xFF800000#32))
                        (Host.reduce FloatOps.maximumf x1 (constant (F := Ideal) S_ .f32 0xFF800000#32)
                          reducesTo_S16x100x21_S16x100_d2 h_S_))))))
              (constant (F := Ideal) S_ .f32 0x00000000#32) reducesTo_S16x100x21_S16x100_d2 h_S_))))
      (uitofp .f32
        (cmpi .eq
          (broadcastInDim S16x50x21 ![0, 1, 2] bcast_S16x50x1_S16x50x21_0_1_2
            (broadcastInDim S16x50x1 ![0, 1] bcast_S16x50_S16x50x1_0_1 x3))
          (broadcastInDim S16x50x21 ![0, 1, 2] bcast_S1x1x21_S16x50x21_0_1_2 (iotaInDim S1x1x21 32 2)))))

set_option maxHeartbeats 4000000 in
/-- What the program returns: the mask-and-dice cost plus the classification cost. -/
theorem tail_eq : Pipeline.afterTail₀ cfgs (dats m) 0 (V0 m) [hostOps1, hostOps1_1, hostOps1_2] c main_v15
    = addf (F := Ideal) (s := S16x100x50) (φ := .f32) (costArray m c) (classCost (m ((c : Thread nD τ).loc main_arg1)) (m ((c : Thread nD τ).loc main_arg3))) := by
  have e0 : Pipeline.withArrays (cfgs 0).spec c (V0 m c) (fun w => (dats m 0 c).arrAt w (cfgs 0).N)
      (Proc.devRef .tc main_v0) = costArray m c :=
    (Pipeline.withArrays_arr spec0 launch0.win.arr_inj c _ _ 2).trans (final m c)
  have e1 : Pipeline.withArrays (cfgs 0).spec c (V0 m c) (fun w => (dats m 0 c).arrAt w (cfgs 0).N)
      (Proc.devRef .tc main_arg1) = m ((c : Thread nD τ).loc main_arg1) :=
    (Pipeline.withArrays_of_ne _ c (V0 m c) _ main_arg1 (by exact (by decide : ∀ w, Pipeline.arrRef spec0 w ≠ main_arg1))).trans
      (V_main_arg1 m c)
  have e3 : Pipeline.withArrays (cfgs 0).spec c (V0 m c) (fun w => (dats m 0 c).arrAt w (cfgs 0).N)
      (Proc.devRef .tc main_arg3) = m ((c : Thread nD τ).loc main_arg3) :=
    (Pipeline.withArrays_of_ne _ c (V0 m c) _ main_arg3 (by exact (by decide : ∀ w, Pipeline.arrRef spec0 w ≠ main_arg3))).trans
      (V_main_arg3 m c)
  unfold Pipeline.afterTail₀
  simp only [hostOps1, hostOps1_1, hostOps1_2, List.flatten_cons, List.flatten_nil, List.append_nil, List.cons_append,
    List.nil_append]
  after_results_simp
  rw [e0, e1, e3]
  rfl

/-! ## The run, read -/

/-- Every weakly fair execution ends with the result at the mask-and-dice cost plus the classification cost, and the
    four arguments as they were. -/
theorem run : θ_run defs (onTc (τ := τ) (main (F := Ideal))) ⟨m, fun _ => 0, ρ⟩ fun r => ∀ c : Dev nD,
      r.2.mem ((c.tc : Thread nD τ).loc main_v15)
        = addf (F := Ideal) (s := S16x100x50) (φ := .f32) (costArray m c) (classCost (m ((c : Thread nD τ).loc main_arg1)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v15 (Pipeline.mem_restRefs_of main_v15 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.KernelIdeal.Result

end
-- ==== Proof.RefEntry.lean ====
/-
  The reference, read entry by entry on the extended reals.

  Its two softplus calls are `max z 0 + log1p (exp (−|z|))` behind a guard `z ≠ z` that never fires; its sigmoid is
  `1 / (1 + exp (−x))`, which is the logistic function; its three contractions and two row sums run over all 16384
  positions. So at (b, q, t) it returns
      (1 · ceCost/16384 + 1 · classCost) + 1 · (1 − (diceNum + 1) / ((probSum + labSum) + 1)).
-/
import proofs.«124107_j2164663517209_1_alg».proof.Proof.Gen.ReferenceIdeal.Read
import proofs.«124107_j2164663517209_1_alg».proof.Proof.CostSpec

noncomputable section

open scoped BigOperators

namespace Cert.ReferenceIdeal.Entry

open Cert.ReferenceIdeal Cert.ReferenceIdeal.Read Idealize.ShloMosaic Idealize.ShloMosaic.ValueIdx Cert.MatchCost

variable (x0 : (⟨S16x100x16384, .f32⟩ : BufTy).Contents (Elt Ideal)) (x1 : (⟨S16x100x21, .f32⟩ : BufTy).Contents (Elt Ideal))
  (x2 : (⟨S16x50x16384, .f32⟩ : BufTy).Contents (Elt Ideal)) (x3 : (⟨S16x50, .i32⟩ : BufTy).Contents (Elt Ideal))

/-! ## The pointwise stages -/

/-- softplus of the negated logit. -/
theorem cePos_apply (j : S16x100x16384.Idx) : val_main_v15 (F := Ideal) x0 j = softplus (-(x0 j)) := by
  simp only [val_main_v15_apply, val_main_call1_v4_apply, val_main_call1_v3_apply, val_main_v14_apply,
    val_main_call1_v2_apply, val_main_call1_cst_apply, val_main_call1_v6_apply, val_main_call1_v5_apply,
    val_main_call1_v11_apply, val_main_call1_v1_apply, val_main_call1_v0_apply, val_main_call1_v10_apply,
    val_main_call1_v9_apply, val_main_call1_v8_apply, val_main_call1_v7_apply,
    Ideal.cmpf_def, Ideal.hostNegf_def, Ideal.negf_def, Ideal.hostAbsf_def, Ideal.absf_def, Ideal.subf_def, Ideal.addf_def,
    Ideal.maximumf_def, Ideal.hostUnary_exp_def, Ideal.hostUnary_log1p_def, Ideal.ofBits_def, Ideal.ofBits_zero_f32,
    sub_zero, cmp_une_self, select_zero]
  rfl

/-- softplus of the logit. -/
theorem ceNeg_apply (j : S16x100x16384.Idx) : val_main_v16 (F := Ideal) x0 j = softplus (x0 j) := by
  simp only [val_main_v16_apply, val_main_call2_v4_apply, val_main_call2_v3_apply,
    val_main_call2_v2_apply, val_main_call2_cst_apply, val_main_call2_v6_apply, val_main_call2_v5_apply,
    val_main_call2_v11_apply, val_main_call2_v1_apply, val_main_call2_v0_apply, val_main_call2_v10_apply,
    val_main_call2_v9_apply, val_main_call2_v8_apply, val_main_call2_v7_apply,
    Ideal.cmpf_def, Ideal.hostNegf_def, Ideal.negf_def, Ideal.hostAbsf_def, Ideal.absf_def, Ideal.subf_def, Ideal.addf_def,
    Ideal.maximumf_def, Ideal.hostUnary_exp_def, Ideal.hostUnary_log1p_def, Ideal.ofBits_def, Ideal.ofBits_zero_f32,
    sub_zero, cmp_une_self, select_zero]
  rfl

/-- One minus the target mask. -/
theorem oneMinus_apply (j : S16x50x16384.Idx) : val_main_v19 (F := Ideal) x2 j = 1 - x2 j := by
  simp only [val_main_v19_apply, val_main_v18_apply, val_main_cst_2_apply, Ideal.subf_def, Ideal.ofBits_def,
    Ideal.ofBits_one_f32]

/-- The sigmoid spelt with a division is the logistic function. -/
theorem prob_apply (j : S16x100x16384.Idx) : val_main_v29 (F := Ideal) x0 j = Ideal.logistic (x0 j) := by
  simp only [val_main_v29_apply, val_main_v28_apply, val_main_cst_5_apply, val_main_v27_apply, val_main_v26_apply,
    val_main_cst_4_apply, val_main_v25_apply, val_main_v24_apply, Ideal.hostDivf_def, Ideal.addf_def,
    Ideal.hostUnary_exp_def, Ideal.hostNegf_def, Ideal.negf_def, Ideal.ofBits_def, Ideal.ofBits_one_f32]
  rfl

/-! ## The coordinates of a result index, and the operand indices the contractions and row sums read -/

def co0 (i : S16x100x50.Idx) : Fin 16 := ⟨(i 0).val, (i 0).isLt⟩
def co1 (i : S16x100x50.Idx) : Fin 100 := ⟨(i 1).val, (i 1).isLt⟩
def co2 (i : S16x100x50.Idx) : Fin 50 := ⟨(i 2).val, (i 2).isLt⟩

theorem lidx17 (i : S16x100x50.Idx) (k : Fin 16384) : lidx_main_v17 i k = ix3 (co0 i) (co1 i) k :=
  funext fun a => by match a with | ⟨0, _⟩ => rfl | ⟨1, _⟩ => rfl | ⟨2, _⟩ => rfl
theorem ridx17 (i : S16x100x50.Idx) (k : Fin 16384) : ridx_main_v17 i k = ix3 (co0 i) (co2 i) k :=
  funext fun a => by match a with | ⟨0, _⟩ => rfl | ⟨1, _⟩ => rfl | ⟨2, _⟩ => rfl
theorem lidx20 (i : S16x100x50.Idx) (k : Fin 16384) : lidx_main_v20 i k = ix3 (co0 i) (co1 i) k :=
  funext fun a => by match a with | ⟨0, _⟩ => rfl | ⟨1, _⟩ => rfl | ⟨2, _⟩ => rfl
theorem ridx20 (i : S16x100x50.Idx) (k : Fin 16384) : ridx_main_v20 i k = ix3 (co0 i) (co2 i) k :=
  funext fun a => by match a with | ⟨0, _⟩ => rfl | ⟨1, _⟩ => rfl | ⟨2, _⟩ => rfl
theorem lidx30 (i : S16x100x50.Idx) (k : Fin 16384) : lidx_main_v30 i k = ix3 (co0 i) (co1 i) k :=
  funext fun a => by match a with | ⟨0, _⟩ => rfl | ⟨1, _⟩ => rfl | ⟨2, _⟩ => rfl
theorem ridx30 (i : S16x100x50.Idx) (k : Fin 16384) : ridx_main_v30 i k = ix3 (co0 i) (co2 i) k :=
  funext fun a => by match a with | ⟨0, _⟩ => rfl | ⟨1, _⟩ => rfl | ⟨2, _⟩ => rfl
theorem idx33 (i : S16x100x50.Idx) (k : Fin 16384) :
    idx_main_v33 (idx_main_v34 (idx_main_v37 i)) k = ix3 (co0 i) (co1 i) k :=
  funext fun a => by match a with | ⟨0, _⟩ => rfl | ⟨1, _⟩ => rfl | ⟨2, _⟩ => rfl
theorem idx35 (i : S16x100x50.Idx) (k : Fin 16384) :
    idx_main_v35 (idx_main_v36 (idx_main_v38 i)) k = ix3 (co0 i) (co2 i) k :=
  funext fun a => by match a with | ⟨0, _⟩ => rfl | ⟨1, _⟩ => rfl | ⟨2, _⟩ => rfl

/-! ## The four sums -/

theorem ce_apply (i : S16x100x50.Idx) :
    val_main_v21 (F := Ideal) x0 x2 i = ceCost x0 x2 (co0 i) (co1 i) (co2 i) := by
  rw [val_main_v21_apply, val_main_v17_apply, val_main_v20_apply]
  simp only [cePos_apply, ceNeg_apply, oneMinus_apply, lidx17, ridx17, lidx20, ridx20, Ideal.addf_def]
  rfl

theorem num_apply (i : S16x100x50.Idx) :
    val_main_v32 (F := Ideal) x0 x2 i = diceNum x0 x2 (co0 i) (co1 i) (co2 i) := by
  rw [val_main_v32_apply, val_main_v30_apply, val_main_v31_apply, val_main_cst_6_apply]
  simp only [prob_apply, lidx30, ridx30, Ideal.mulf_def, Ideal.ofBits_def]
  rfl

theorem probSum_apply (i : S16x100x50.Idx) :
    val_main_v37 (F := Ideal) x0 i = probSum x0 (co0 i) (co1 i) := by
  rw [val_main_v37_apply, val_main_v34_apply, val_main_v33_apply, val_main_cst_7_apply]
  simp only [prob_apply, idx33, Ideal.ofBits_def, Ideal.ofBits_zero_f32, zero_add]
  rfl

theorem labSum_apply (i : S16x100x50.Idx) :
    val_main_v38 (F := Ideal) x2 i = labSum x2 (co0 i) (co2 i) := by
  rw [val_main_v38_apply, val_main_v36_apply, val_main_v35_apply, val_main_cst_8_apply]
  simp only [idx35, Ideal.ofBits_def, Ideal.ofBits_zero_f32, zero_add]
  rfl

/-! ## The result -/

/-- The reference's result at an entry. -/
theorem result_apply (i : S16x100x50.Idx) :
    val_main_v54 (F := Ideal) x0 x1 x2 x3 i
      = (1 * Ideal.div (ceCost x0 x2 (co0 i) (co1 i) (co2 i)) g32 + 1 * val_main_v13 (F := Ideal) x1 x3 i)
        + 1 * (1 - Ideal.div (diceNum x0 x2 (co0 i) (co1 i) (co2 i) + 1)
            ((probSum x0 (co0 i) (co1 i) + labSum x2 (co0 i) (co2 i)) + 1)) := by
  simp only [val_main_v54_apply, val_main_v51_apply, val_main_v53_apply, val_main_v48_apply, val_main_v50_apply,
    val_main_v47_apply, val_main_v49_apply, val_main_v52_apply, val_main_cst_12_apply, val_main_cst_13_apply,
    val_main_cst_14_apply, val_main_v23_apply, val_main_v22_apply, val_main_cst_3_apply, val_main_v46_apply,
    val_main_v45_apply, val_main_cst_11_apply, val_main_v44_apply, val_main_v41_apply, val_main_v40_apply,
    val_main_cst_9_apply, val_main_v43_apply, val_main_v42_apply, val_main_cst_10_apply, val_main_v39_apply,
    ce_apply, num_apply, probSum_apply, labSum_apply,
    Ideal.addf_def, Ideal.mulf_def, Ideal.subf_def, Ideal.hostDivf_def, Ideal.ofBits_def, Ideal.ofBits_one_f32]

end Cert.ReferenceIdeal.Entry

end
-- ==== Proof.Bridge.lean ====
/-
  The two programs return one function of the arguments.

  Entry by entry the reference returns (1 · M + 1 · C) + 1 · D and the kernel's program (M + D) + C, where M is the mean
  cross-entropy cost, D the dice cost and C the classification cost: the same sum, since multiplying by one changes
  nothing and addition of extended reals is commutative and associative. The classification cost is the same chain of
  host operations in both programs.
-/
import proofs.«124107_j2164663517209_1_alg».proof.Proof.KernelValue
import proofs.«124107_j2164663517209_1_alg».proof.Proof.RefEntry

noncomputable section

open scoped BigOperators

namespace Cert.Bridge

open Idealize.ShloMosaic Idealize.ShloMosaic.ValueIdx Cert.MatchCost

/-- The classification cost is one term in both programs. -/
theorem class_eq (x1 : (⟨Cert.KernelIdeal.S16x100x21, .f32⟩ : BufTy).Contents (Elt Ideal))
    (x3 : (⟨Cert.KernelIdeal.S16x50, .i32⟩ : BufTy).Contents (Elt Ideal)) :
    Cert.ReferenceIdeal.Read.val_main_v13 (F := Ideal) x1 x3 = Cert.KernelIdeal.Result.classCost x1 x3 := rfl

/-- The reference's result is the mask-and-dice cost plus the classification cost. -/
theorem result_eq (x0 : (⟨Cert.KernelIdeal.S16x100x16384, .f32⟩ : BufTy).Contents (Elt Ideal))
    (x1 : (⟨Cert.KernelIdeal.S16x100x21, .f32⟩ : BufTy).Contents (Elt Ideal))
    (x2 : (⟨Cert.KernelIdeal.S16x50x16384, .f32⟩ : BufTy).Contents (Elt Ideal))
    (x3 : (⟨Cert.KernelIdeal.S16x50, .i32⟩ : BufTy).Contents (Elt Ideal)) :
    Cert.ReferenceIdeal.Read.val_main_v54 (F := Ideal) x0 x1 x2 x3
      = addf (F := Ideal) (s := Cert.KernelIdeal.S16x100x50) (φ := .f32) (fun i => maskDice x0 x2 (Cert.KernelIdeal.Result.co0 i) (Cert.KernelIdeal.Result.co1 i)
          (Cert.KernelIdeal.Result.co2 i)) (Cert.KernelIdeal.Result.classCost x1 x3) := by
  funext i
  rw [Cert.ReferenceIdeal.Entry.result_apply, class_eq]
  show _ = maskDice x0 x2 (Cert.KernelIdeal.Result.co0 i) (Cert.KernelIdeal.Result.co1 i) (Cert.KernelIdeal.Result.co2 i)
    + Cert.KernelIdeal.Result.classCost x1 x3 i
  unfold maskDice
  rw [one_mul, one_mul, one_mul, add_right_comm]
  rfl

end Cert.Bridge

end
-- ==== Proof.lean ====
/-
  The kernel computes, for every batch element b, query q and target t, the matching cost

      maskDice b q t + classCost b q t,

  where maskDice is the mean sigmoid cross-entropy of query q's mask logits against target t's mask plus the dice cost
  1 − (2 Σ σ(x)·y + 1) / (Σ σ(x) + Σ y + 1), and classCost is minus the softmax probability of target t's class.
  The vector program accumulates the four sums of maskDice over four tiles of 4096 mask positions in scratch
  accumulators and combines them at the last tile; the reference contracts over all 16384 positions at once. On the
  extended reals the tiled sums are the whole sums (addition is commutative and associative; the factor 2 is a
  nonnegative real and distributes over a finite sum), a change of float format is the identity, the logistic function
  is 1 / (1 + e^(−x)), and a guard `z ≠ z` never fires. So both programs end with the same array.
-/
import proofs.«124107_j2164663517209_1_alg».proof.Defs
import proofs.«124107_j2164663517209_1_alg».proof.Proof.Gen.Kernel
import proofs.«124107_j2164663517209_1_alg».proof.Proof.Gen.Kernel.Frame
import proofs.«124107_j2164663517209_1_alg».proof.Proof.Gen.KernelIdeal
import proofs.«124107_j2164663517209_1_alg».proof.Proof.Gen.KernelIdeal.Frame
import proofs.«124107_j2164663517209_1_alg».proof.Proof.Gen.ReferenceIdeal
import proofs.«124107_j2164663517209_1_alg».proof.Proof.Gen.ReferenceIdeal.Run
import proofs.«124107_j2164663517209_1_alg».proof.Proof.Gen.ReferenceIdeal.Read
import proofs.«124107_j2164663517209_1_alg».proof.Proof.Gen.Pre_finite_inputs
import proofs.«124107_j2164663517209_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a line of host operations: it runs, and writes no argument. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel was read on the extended reals. -/
theorem preserves : Cert.preserves_Kernel_KernelIdeal := trivial

/-- From memories that agree on the four arguments both programs end with the matching cost of those arguments. -/
theorem algebraic : Cert.algebraic_KernelIdeal_ReferenceIdeal := by
  intro m ρ m' ρ' _ hagree
  refine ⟨fun c => addf (F := Ideal) (s := Cert.KernelIdeal.S16x100x50) (φ := .f32) (Cert.KernelIdeal.Result.costArray m c)
      (Cert.KernelIdeal.Result.classCost (m ((c.tc : Thread Cert.KernelIdeal.nD Cert.KernelIdeal.τ).loc Cert.KernelIdeal.main_arg1))
        (m ((c.tc : Thread Cert.KernelIdeal.nD Cert.KernelIdeal.τ).loc Cert.KernelIdeal.main_arg3))),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, (hagree c).1, (hagree c).2.1, (hagree c).2.2.1, (hagree c).2.2.2]
  exact Cert.Bridge.result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
